-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x300x128 : Shape := ⟨4, ![32, 64, 300, 128]⟩
abbrev S_ : Shape := ⟨0, ![]⟩

class Facts : Prop where
  bcast_S_S32x64x300x128 : S_.BroadcastsInDim S32x64x300x128 (![] : Fin 0 → Fin S32x64x300x128.rank)
  reducesTo_S32x64x300x128_S_d0_1_2_3 : S32x64x300x128.ReducesTo [0, 1, 2, 3] S_
  h_S_ : 0 < S_.numel

variable [Facts]

def fn {F : FTy → Type} [FloatOps F] (main_arg0 : FVec F S32x64x300x128 .f32) (main_arg1 : FVec F S32x64x300x128 .f32) : IVec S_ 1 :=
  let main_v0 : FVec F S32x64x300x128 .f32 := Host.absf main_arg0
  let main_cst : FVec F S_ .f32 := constant S_ .f32 0x7F800000#32
  let main_v1 : FVec F S32x64x300x128 .f32 := broadcastInDim S32x64x300x128 ![] bcast_S_S32x64x300x128 main_cst
  let main_v2 : IVec S32x64x300x128 1 := cmpf .olt main_v0 main_v1
  let main_c : IVec S_ 1 := constantI S_ 1 1#1
  let main_v3 : IVec S_ 1 := (fun x v => Host.reduce IntOp.andi x v reducesTo_S32x64x300x128_S_d0_1_2_3 h_S_) main_v2 main_c
  let main_v4 : FVec F S32x64x300x128 .f32 := Host.absf main_arg1
  let main_cst_0 : FVec F S_ .f32 := constant S_ .f32 0x7F800000#32
  let main_v5 : FVec F S32x64x300x128 .f32 := broadcastInDim S32x64x300x128 ![] bcast_S_S32x64x300x128 main_cst_0
  let main_v6 : IVec S32x64x300x128 1 := cmpf .olt main_v4 main_v5
  let main_c_1 : IVec S_ 1 := constantI S_ 1 1#1
  let main_v7 : IVec S_ 1 := (fun x v => Host.reduce IntOp.andi x v reducesTo_S32x64x300x128_S_d0_1_2_3 h_S_) main_v6 main_c_1
  let main_v8 : IVec S_ 1 := andi main_v3 main_v7
  main_v8
-- ==== Kernel.lean ====
abbrev S32x64x300x128 : Shape := ⟨4, ![32, 64, 300, 128]⟩
abbrev S32x64x128 : Shape := ⟨3, ![32, 64, 128]⟩
abbrev S1x64x300x128 : Shape := ⟨4, ![1, 64, 300, 128]⟩
abbrev S1x64x128 : Shape := ⟨3, ![1, 64, 128]⟩
abbrev S64x128 : Shape := ⟨2, ![64, 128]⟩
abbrev S1x64x60x128 : Shape := ⟨4, ![1, 64, 60, 128]⟩
abbrev S64x60x128 : Shape := ⟨3, ![64, 60, 128]⟩
abbrev S32x64x128x1 : Shape := ⟨4, ![32, 64, 128, 1]⟩
abbrev S32x64x128x3 : Shape := ⟨4, ![32, 64, 128, 3]⟩
abbrev S32x8192x3 : Shape := ⟨3, ![32, 8192, 3]⟩

abbrev nBuf : Space → Nat
  | .hbm => 10
  | .vmem => 10
  | .smem => 0
  | _ => 0

abbrev bufTy : (tb : Table) → Fin (tcTables nBuf tb) → BufTy
  | .hbm, ⟨0, _⟩ => ⟨S32x64x300x128, .f32⟩
  | .hbm, ⟨1, _⟩ => ⟨S32x64x300x128, .f32⟩
  | .hbm, ⟨2, _⟩ => ⟨S32x64x128, .f32⟩
  | .hbm, ⟨3, _⟩ => ⟨S32x64x128, .f32⟩
  | .hbm, ⟨4, _⟩ => ⟨S32x64x128, .f32⟩
  | .hbm, ⟨5, _⟩ => ⟨S32x64x128x1, .f32⟩
  | .hbm, ⟨6, _⟩ => ⟨S32x64x128x1, .f32⟩
  | .hbm, ⟨7, _⟩ => ⟨S32x64x128x1, .f32⟩
  | .hbm, ⟨8, _⟩ => ⟨S32x64x128x3, .f32⟩
  | .hbm, ⟨9, _⟩ => ⟨S32x8192x3, .f32⟩
  | .local _ .vmem, ⟨0, _⟩ => ⟨S1x64x300x128, .f32⟩
  | .local _ .vmem, ⟨1, _⟩ => ⟨S1x64x300x128, .f32⟩
  | .local _ .vmem, ⟨2, _⟩ => ⟨S1x64x300x128, .f32⟩
  | .local _ .vmem, ⟨3, _⟩ => ⟨S1x64x300x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | _, _ => ⟨S32x64x300x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x300x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x300x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x64x300x128_S1x64x60x128_0_0_0_0 : ∀ a, (![0, 0, 0, 0] : Fin 4 → Nat) a + S1x64x60x128.size a ≤ S1x64x300x128.size a
  h_S1x64x60x128 : 0 < S1x64x60x128.numel
  shapeCasts_S1x64x60x128_S64x60x128 : S1x64x60x128.ShapeCasts S64x60x128
  reduces_S64x60x128_S64x128 : S64x60x128.Reduces [1] S64x128
  inb_S1x64x300x128_S1x64x60x128_0_0_60_0 : ∀ a, (![0, 0, 60, 0] : Fin 4 → Nat) a + S1x64x60x128.size a ≤ S1x64x300x128.size a
  inb_S1x64x300x128_S1x64x60x128_0_0_120_0 : ∀ a, (![0, 0, 120, 0] : Fin 4 → Nat) a + S1x64x60x128.size a ≤ S1x64x300x128.size a
  inb_S1x64x300x128_S1x64x60x128_0_0_180_0 : ∀ a, (![0, 0, 180, 0] : Fin 4 → Nat) a + S1x64x60x128.size a ≤ S1x64x300x128.size a
  inb_S1x64x300x128_S1x64x60x128_0_0_240_0 : ∀ a, (![0, 0, 240, 0] : Fin 4 → Nat) a + S1x64x60x128.size a ≤ S1x64x300x128.size a
  natLt_1_32 : 1 < 32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  bcast_S32x64x128_S32x64x128x1_0_1_2 : S32x64x128.BroadcastsInDim S32x64x128x1 (![0, 1, 2] : Fin 3 → Fin S32x64x128x1.rank)
  concatenates_S32x64x128x1_S32x64x128x1_S32x64x128x1_S32x64x128x3_d3 : Shape.Concatenates [S32x64x128x1, S32x64x128x1, S32x64x128x1] S32x64x128x3 3
  shapeCasts_S32x64x128x3_S32x8192x3 : S32x64x128x3.ShapeCasts S32x8192x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x300x128.size a ≤ S32x64x300x128.size a
  hwx0_0 : ∀ i : grid0.Coords, EltTy.bits .f32 = 32 ∨ (Rect.block (s := S32x64x300x128) S1x64x300x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x300x128.size a ≤ S32x64x300x128.size a
  hwx0_1 : ∀ i : grid0.Coords, EltTy.bits .f32 = 32 ∨ (Rect.block (s := S32x64x300x128) S1x64x300x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S32x64x128.size a
  hwx0_2 : ∀ i : grid0.Coords, EltTy.bits .f32 = 32 ∨ (Rect.block (s := S32x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x128.size a ≤ S32x64x128.size a
  hwx0_3 : ∀ i : grid0.Coords, EltTy.bits .f32 = 32 ∨ (Rect.block (s := S32x64x128) S1x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128.size a ≤ S32x64x128.size a
  hwx0_4 : ∀ i : grid0.Coords, EltTy.bits .f32 = 32 ∨ (Rect.block (s := S32x64x128) S1x64x128.size (cc0_transform_4 i) (hinb0_4 i)).WholeWords (EltTy.packing .f32)

variable [Facts₀]

abbrev win0_0 : Pipeline.Window sig grid0 :=
  Pipeline.Window.ofSpec (Memref.whole main_arg0) S1x64x300x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x300x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x64x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64x300x128 : Shape := ⟨4, ![32, 64, 300, 128]⟩
abbrev S32x64x128x300 : Shape := ⟨4, ![32, 64, 128, 300]⟩
abbrev S32x8192x300 : Shape := ⟨3, ![32, 8192, 300]⟩
abbrev S_ : Shape := ⟨0, ![]⟩
abbrev S32x8192 : Shape := ⟨2, ![32, 8192]⟩
abbrev S32x8192x1 : Shape := ⟨3, ![32, 8192, 1]⟩
abbrev S32x8192x3 : Shape := ⟨3, ![32, 8192, 3]⟩

abbrev nBuf : Space → Nat
  | .hbm => 45
  | .vmem => 0
  | .smem => 0
  | _ => 0

abbrev bufTy : (tb : Table) → Fin (tcTables nBuf tb) → BufTy
  | .hbm, ⟨0, _⟩ => ⟨S32x64x300x128, .f32⟩
  | .hbm, ⟨1, _⟩ => ⟨S32x64x300x128, .f32⟩
  | .hbm, ⟨2, _⟩ => ⟨S32x64x128x300, .f32⟩
  | .hbm, ⟨3, _⟩ => ⟨S32x8192x300, .f32⟩
  | .hbm, ⟨4, _⟩ => ⟨S32x64x128x300, .f32⟩
  | .hbm, ⟨5, _⟩ => ⟨S32x8192x300, .f32⟩
  | .hbm, ⟨6, _⟩ => ⟨S32x8192x300, .f32⟩
  | .hbm, ⟨7, _⟩ => ⟨S_, .f32⟩
  | .hbm, ⟨8, _⟩ => ⟨S32x8192, .f32⟩
  | .hbm, ⟨9, _⟩ => ⟨S32x8192, .f32⟩
  | .hbm, ⟨10, _⟩ => ⟨S_, .f32⟩
  | .hbm, ⟨11, _⟩ => ⟨S32x8192, .f32⟩
  | .hbm, ⟨12, _⟩ => ⟨S32x8192, .f32⟩
  | .hbm, ⟨13, _⟩ => ⟨S32x8192x300, .f32⟩
  | .hbm, ⟨14, _⟩ => ⟨S_, .f32⟩
  | .hbm, ⟨15, _⟩ => ⟨S32x8192, .f32⟩
  | .hbm, ⟨16, _⟩ => ⟨S32x8192, .f32⟩
  | .hbm, ⟨17, _⟩ => ⟨S_, .f32⟩
  | .hbm, ⟨18, _⟩ => ⟨S32x8192, .f32⟩
  | .hbm, ⟨19, _⟩ => ⟨S32x8192, .f32⟩
  | .hbm, ⟨20, _⟩ => ⟨S32x8192x300, .f32⟩
  | .hbm, ⟨21, _⟩ => ⟨S_, .f32⟩
  | .hbm, ⟨22, _⟩ => ⟨S32x8192, .f32⟩
  | .hbm, ⟨23, _⟩ => ⟨S32x8192, .f32⟩
  | .hbm, ⟨24, _⟩ => ⟨S32x8192, .f32⟩
  | .hbm, ⟨25, _⟩ => ⟨S32x8192x300, .f32⟩
  | .hbm, ⟨26, _⟩ => ⟨S32x8192x300, .f32⟩
  | .hbm, ⟨27, _⟩ => ⟨S_, .f32⟩
  | .hbm, ⟨28, _⟩ => ⟨S32x8192, .f32⟩
  | .hbm, ⟨29, _⟩ => ⟨S_, .f32⟩
  | .hbm, ⟨30, _⟩ => ⟨S32x8192, .f32⟩
  | .hbm, ⟨31, _⟩ => ⟨S32x8192, .i1⟩
  | .hbm, ⟨32, _⟩ => ⟨S32x8192, .f32⟩
  | .hbm, ⟨33, _⟩ => ⟨S_, .f32⟩
  | .hbm, ⟨34, _⟩ => ⟨S32x8192, .f32⟩
  | .hbm, ⟨35, _⟩ => ⟨S32x8192, .f32⟩
  | .hbm, ⟨36, _⟩ => ⟨S32x8192, .f32⟩
  | .hbm, ⟨37, _⟩ => ⟨S32x8192, .f32⟩
  | .hbm, ⟨38, _⟩ => ⟨S32x8192x300, .f32⟩
  | .hbm, ⟨39, _⟩ => ⟨S_, .f32⟩
  | .hbm, ⟨40, _⟩ => ⟨S32x8192, .f32⟩
  | .hbm, ⟨41, _⟩ => ⟨S32x8192x1, .f32⟩
  | .hbm, ⟨42, _⟩ => ⟨S32x8192x1, .f32⟩
  | .hbm, ⟨43, _⟩ => ⟨S32x8192x1, .f32⟩
  | .hbm, ⟨44, _⟩ => ⟨S32x8192x3, .f32⟩
  | _, _ => ⟨S32x64x300x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  transposes_S32x64x300x128_S32x64x128x300_0_1_3_2 : S32x64x300x128.Transposes [0, 1, 3, 2] S32x64x128x300
  shapeCasts_S32x64x128x300_S32x8192x300 : S32x64x128x300.ShapeCasts S32x8192x300
  reducesTo_S32x8192x300_S32x8192_d2 : S32x8192x300.ReducesTo [2] S32x8192
  h_S_ : 0 < S_.numel
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  concatenates_S32x8192x1_S32x8192x1_S32x8192x1_S32x8192x3_d2 : Shape.Concatenates [S32x8192x1, S32x8192x1, S32x8192x1] S32x8192x3 2

variable [Facts₀]

class Facts : Prop extends Facts₀ where

variable [Facts]
-- ==== Proof.BodyTermK.lean ====
/-
  What the kernel body computes from the ten 60-position pieces it loads of its two input blocks, as three
  whole-block functions. Each input block [1, 64, 300, 128] is read in five consecutive pieces [1, 64, 60, 128]
  along the position axis; for each of the five running sums (x·x, y·y, x·y, (x−y)², |x−y|) a piece contributes its
  sum over the 60 positions, and the contributions are accumulated from zero, first piece first. The three stored
  blocks [1, 64, 128] are the cosine (each norm floored), the distance (its square pushed up when below the
  boundary) and the sum of absolute differences.
-/
import proofs.«164841_j84593675862345_2_alg».proof.Kernel

noncomputable section

namespace Cert.Kernel.Hand

open Idealize.ShloMosaic Idealize.SL.Sem Cert.Kernel
open Cert.Kernel.Facts₀

variable {F : FTy → Type} [FloatOps F] [Facts]

/-- A loaded piece with its leading unit axis dropped. -/
def piece (v : Vec F S1x64x60x128 .f32) : FVec F S64x60x128 .f32 :=
  shapeCast S64x60x128 v shapeCasts_S1x64x60x128_S64x60x128
/-- The sum over the 60 positions of a piece. -/
def sum60 (w : FVec F S64x60x128 .f32) : FVec F S64x128 .f32 :=
  multiReduction .add [1] S64x128 w 0x00000000#32 reduces_S64x60x128_S64x128 (.inl rfl) rfl
/-- The zero every running sum starts from. -/
def zero : FVec F S64x128 .f32 := broadcast S64x128 (Scalar.ofBits .f32 0x00000000#32 : F .f32)
/-- Five contributions accumulated from zero, first first. -/
def acc5 (s0 s1 s2 s3 s4 : FVec F S64x128 .f32) : FVec F S64x128 .f32 :=
  addf (addf (addf (addf (addf zero s0) s1) s2) s3) s4

/-- The running sum of products u·v over the five pieces. -/
def accMul (u0 u1 u2 u3 u4 v0 v1 v2 v3 v4 : Vec F S1x64x60x128 .f32) : FVec F S64x128 .f32 :=
  acc5 (sum60 (mulf (piece u0) (piece v0))) (sum60 (mulf (piece u1) (piece v1))) (sum60 (mulf (piece u2) (piece v2)))
    (sum60 (mulf (piece u3) (piece v3))) (sum60 (mulf (piece u4) (piece v4)))
/-- The running sum of squared differences. -/
def accSqd (u0 u1 u2 u3 u4 v0 v1 v2 v3 v4 : Vec F S1x64x60x128 .f32) : FVec F S64x128 .f32 :=
  acc5 (sum60 (mulf (subf (piece u0) (piece v0)) (subf (piece u0) (piece v0))))
    (sum60 (mulf (subf (piece u1) (piece v1)) (subf (piece u1) (piece v1))))
    (sum60 (mulf (subf (piece u2) (piece v2)) (subf (piece u2) (piece v2))))
    (sum60 (mulf (subf (piece u3) (piece v3)) (subf (piece u3) (piece v3))))
    (sum60 (mulf (subf (piece u4) (piece v4)) (subf (piece u4) (piece v4))))
/-- The running sum of absolute differences. -/
def accAbs (u0 u1 u2 u3 u4 v0 v1 v2 v3 v4 : Vec F S1x64x60x128 .f32) : FVec F S64x128 .f32 :=
  acc5 (sum60 (absf (subf (piece u0) (piece v0)))) (sum60 (absf (subf (piece u1) (piece v1))))
    (sum60 (absf (subf (piece u2) (piece v2)))) (sum60 (absf (subf (piece u3) (piece v3))))
    (sum60 (absf (subf (piece u4) (piece v4))))

/-- The floor under a norm, spread over the block. -/
def floorBlk : FVec F S64x128 .f32 := broadcast S64x128 (Scalar.ofBits .f32 0x2B8CBCCC#32 : F .f32)
/-- The boundary, spread over the block. -/
def bndBlk : FVec F S64x128 .f32 := broadcast S64x128 (Scalar.ofBits .f32 0x322BCC77#32 : F .f32)

/-- The stored cosine block. -/
def cosBlk (u0 u1 u2 u3 u4 v0 v1 v2 v3 v4 : Vec F S1x64x60x128 .f32) : FVec F S1x64x128 .f32 :=
  shapeCast S1x64x128
    (divf (accMul u0 u1 u2 u3 u4 v0 v1 v2 v3 v4)
      (mulf (maximumf (sqrt (accMul u0 u1 u2 u3 u4 u0 u1 u2 u3 u4)) floorBlk)
        (maximumf (sqrt (accMul v0 v1 v2 v3 v4 v0 v1 v2 v3 v4)) floorBlk)))
    shapeCasts_S64x128_S1x64x128
/-- The stored distance block. -/
def distBlk (u0 u1 u2 u3 u4 v0 v1 v2 v3 v4 : Vec F S1x64x60x128 .f32) : FVec F S1x64x128 .f32 :=
  shapeCast S1x64x128
    (sqrt (addf (accSqd u0 u1 u2 u3 u4 v0 v1 v2 v3 v4)
      (mulf (sitofp .f32 (extui 32 (cmpf .olt (accSqd u0 u1 u2 u3 u4 v0 v1 v2 v3 v4) bndBlk) natLt_1_32)) bndBlk)))
    shapeCasts_S64x128_S1x64x128
/-- The stored block of sums of absolute differences. -/
def absBlk (u0 u1 u2 u3 u4 v0 v1 v2 v3 v4 : Vec F S1x64x60x128 .f32) : FVec F S1x64x128 .f32 :=
  shapeCast S1x64x128 (accAbs u0 u1 u2 u3 u4 v0 v1 v2 v3 v4) shapeCasts_S64x128_S1x64x128

end Cert.Kernel.Hand

end
-- ==== Proof.FrameK.lean ====
/-
  The frame of the program: its one pipelined kernel call followed by five host lines (three reshapes of the
  kernel's three results to a trailing unit axis, their join along that axis, and the merge of the channel and lane
  axes into rows). Every weakly fair execution terminates without a fault; the two argument arrays end as launched;
  each of the kernel's three result arrays ends, block by block, at what the body computed from the two input blocks
  of the same grid point; every other buffer ends at what the five host lines compute.
  The body reads each of its two input blocks in five pieces of 60 positions and overwrites each of its three output
  blocks whole, so after the body an output's staging buffer holds one piece: the stored block.
-/
import proofs.«164841_j84593675862345_2_alg».proof.Proof.Gen.Kernel.Launch
import proofs.«164841_j84593675862345_2_alg».proof.Proof.Gen.Kernel.Skeleton
import proofs.«164841_j84593675862345_2_alg».proof.Proof.Gen.Kernel.Points
import proofs.«164841_j84593675862345_2_alg».proof.Proof.BodyTermK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the kernel call -/

/-- A core's buffer contents when the kernel call is entered: as launched (no host line precedes the call). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the kernel call continued by the five host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The five lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the kernel call's five arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The kernel call finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The blocks -/

/-- Window w's block at grid point t, read off its array as the kernel call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's post: both arguments are staged inputs, which end at their
    entry contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's accesses -/

/-- The five pieces of an input block: 60 consecutive positions each. -/
abbrev rI0 : Rect S1x64x300x128 := Rect.unit (s := S1x64x300x128) ![0, 0, 0, 0] S1x64x60x128.size inb_S1x64x300x128_S1x64x60x128_0_0_0_0
abbrev rI1 : Rect S1x64x300x128 := Rect.unit (s := S1x64x300x128) ![0, 0, 60, 0] S1x64x60x128.size inb_S1x64x300x128_S1x64x60x128_0_0_60_0
abbrev rI2 : Rect S1x64x300x128 := Rect.unit (s := S1x64x300x128) ![0, 0, 120, 0] S1x64x60x128.size inb_S1x64x300x128_S1x64x60x128_0_0_120_0
abbrev rI3 : Rect S1x64x300x128 := Rect.unit (s := S1x64x300x128) ![0, 0, 180, 0] S1x64x60x128.size inb_S1x64x300x128_S1x64x60x128_0_0_180_0
abbrev rI4 : Rect S1x64x300x128 := Rect.unit (s := S1x64x300x128) ![0, 0, 240, 0] S1x64x60x128.size inb_S1x64x300x128_S1x64x60x128_0_0_240_0
/-- An output block, whole. -/
abbrev rO : Rect S1x64x128 := Rect.unit (s := S1x64x128) ![0, 0, 0] S1x64x128.size inb_S1x64x128_S1x64x128_0_0_0

/-! ## What the body leaves in each output window's buffer -/

def out0_2 (x0 x1 : Vec F S1x64x300x128 .f32) : Vec F S1x64x128 .f32 :=
  View.canon [⟨rO, cosBlk (View.ld x0 rI0) (View.ld x0 rI1) (View.ld x0 rI2) (View.ld x0 rI3) (View.ld x0 rI4)
    (View.ld x1 rI0) (View.ld x1 rI1) (View.ld x1 rI2) (View.ld x1 rI3) (View.ld x1 rI4)⟩]
def out0_3 (x0 x1 : Vec F S1x64x300x128 .f32) : Vec F S1x64x128 .f32 :=
  View.canon [⟨rO, distBlk (View.ld x0 rI0) (View.ld x0 rI1) (View.ld x0 rI2) (View.ld x0 rI3) (View.ld x0 rI4)
    (View.ld x1 rI0) (View.ld x1 rI1) (View.ld x1 rI2) (View.ld x1 rI3) (View.ld x1 rI4)⟩]
def out0_4 (x0 x1 : Vec F S1x64x300x128 .f32) : Vec F S1x64x128 .f32 :=
  View.canon [⟨rO, absBlk (View.ld x0 rI0) (View.ld x0 rI1) (View.ld x0 rI2) (View.ld x0 rI3) (View.ld x0 rI4)
    (View.ld x1 rI0) (View.ld x1 rI1) (View.ld x1 rI2) (View.ld x1 rI3) (View.ld x1 rI4)⟩]

/-- The one store of an output covers its buffer. -/
theorem coverO (p0 : Vec F S1x64x128 .f32) (y : S1x64x128.Idx) :
    ∃ pc ∈ ([⟨rO, p0⟩] : List (View.Piece (Elt F) S1x64x128 .f32)), y ∈ pc.1.set :=
  View.cover_of_tiled [⟨rO, p0⟩] S1x64x128.size (by rfl) y

/-! ## The body's triple -/

set_option maxHeartbeats 4000000 in
/-- The body on whole staging buffers, the inputs' at contents x0, x1 and the outputs' at anything, runs to the
    continuation with the inputs' as they were and each output's at its stored block. -/
theorem sound_kernel (c : Dev nD) (E : Set ℕ) (i : grid0.Coords)
    (arg2 : Memref sig .tc .vmem S1x64x300x128 .f32) (harg2 : arg2.IsWhole) (arg3 : Memref sig .tc .vmem S1x64x300x128 .f32) (harg3 : arg3.IsWhole)
    (arg4 : Memref sig .tc .vmem S1x64x128 .f32) (harg4 : arg4.IsWhole) (arg5 : Memref sig .tc .vmem S1x64x128 .f32) (harg5 : arg5.IsWhole)
    (arg6 : Memref sig .tc .vmem S1x64x128 .f32) (harg6 : arg6.IsWhole)
    (x0 : Vec F S1x64x300x128 .f32) (x1 : Vec F S1x64x300x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The pipeline's proof data -/

/-- The arrays as the kernel call finds them; after the body at point t each input's buffer at its block and each
    output's at its stored block of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each of the kernel call's arrays at what the proof data
    gives and every other unscoped buffer as the five host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.BodyTermKI.lean ====
/-
  What the kernel body computes from the ten 60-position pieces it loads of its two input blocks, as three
  whole-block functions. Each input block [1, 64, 300, 128] is read in five consecutive pieces [1, 64, 60, 128]
  along the position axis; for each of the five running sums (x·x, y·y, x·y, (x−y)², |x−y|) a piece contributes its
  sum over the 60 positions, and the contributions are accumulated from zero, first piece first. The three stored
  blocks [1, 64, 128] are the cosine (each norm floored), the distance (its square pushed up when below the
  boundary) and the sum of absolute differences.
-/
import proofs.«164841_j84593675862345_2_alg».proof.KernelIdeal

noncomputable section

namespace Cert.KernelIdeal.Hand

open Idealize.ShloMosaic Idealize.SL.Sem Cert.KernelIdeal
open Cert.KernelIdeal.Facts₀

variable {F : FTy → Type} [FloatOps F] [Facts]

/-- A loaded piece with its leading unit axis dropped. -/
def piece (v : Vec F S1x64x60x128 .f32) : FVec F S64x60x128 .f32 :=
  shapeCast S64x60x128 v shapeCasts_S1x64x60x128_S64x60x128
/-- The sum over the 60 positions of a piece. -/
def sum60 (w : FVec F S64x60x128 .f32) : FVec F S64x128 .f32 :=
  multiReduction .add [1] S64x128 w 0x00000000#32 reduces_S64x60x128_S64x128 (.inl rfl) rfl
/-- The zero every running sum starts from. -/
def zero : FVec F S64x128 .f32 := broadcast S64x128 (Scalar.ofBits .f32 0x00000000#32 : F .f32)
/-- Five contributions accumulated from zero, first first. -/
def acc5 (s0 s1 s2 s3 s4 : FVec F S64x128 .f32) : FVec F S64x128 .f32 :=
  addf (addf (addf (addf (addf zero s0) s1) s2) s3) s4

/-- The running sum of products u·v over the five pieces. -/
def accMul (u0 u1 u2 u3 u4 v0 v1 v2 v3 v4 : Vec F S1x64x60x128 .f32) : FVec F S64x128 .f32 :=
  acc5 (sum60 (mulf (piece u0) (piece v0))) (sum60 (mulf (piece u1) (piece v1))) (sum60 (mulf (piece u2) (piece v2)))
    (sum60 (mulf (piece u3) (piece v3))) (sum60 (mulf (piece u4) (piece v4)))
/-- The running sum of squared differences. -/
def accSqd (u0 u1 u2 u3 u4 v0 v1 v2 v3 v4 : Vec F S1x64x60x128 .f32) : FVec F S64x128 .f32 :=
  acc5 (sum60 (mulf (subf (piece u0) (piece v0)) (subf (piece u0) (piece v0))))
    (sum60 (mulf (subf (piece u1) (piece v1)) (subf (piece u1) (piece v1))))
    (sum60 (mulf (subf (piece u2) (piece v2)) (subf (piece u2) (piece v2))))
    (sum60 (mulf (subf (piece u3) (piece v3)) (subf (piece u3) (piece v3))))
    (sum60 (mulf (subf (piece u4) (piece v4)) (subf (piece u4) (piece v4))))
/-- The running sum of absolute differences. -/
def accAbs (u0 u1 u2 u3 u4 v0 v1 v2 v3 v4 : Vec F S1x64x60x128 .f32) : FVec F S64x128 .f32 :=
  acc5 (sum60 (absf (subf (piece u0) (piece v0)))) (sum60 (absf (subf (piece u1) (piece v1))))
    (sum60 (absf (subf (piece u2) (piece v2)))) (sum60 (absf (subf (piece u3) (piece v3))))
    (sum60 (absf (subf (piece u4) (piece v4))))

/-- The floor under a norm, spread over the block. -/
def floorBlk : FVec F S64x128 .f32 := broadcast S64x128 (Scalar.ofBits .f32 0x2B8CBCCC#32 : F .f32)
/-- The boundary, spread over the block. -/
def bndBlk : FVec F S64x128 .f32 := broadcast S64x128 (Scalar.ofBits .f32 0x322BCC77#32 : F .f32)

/-- The stored cosine block. -/
def cosBlk (u0 u1 u2 u3 u4 v0 v1 v2 v3 v4 : Vec F S1x64x60x128 .f32) : FVec F S1x64x128 .f32 :=
  shapeCast S1x64x128
    (divf (accMul u0 u1 u2 u3 u4 v0 v1 v2 v3 v4)
      (mulf (maximumf (sqrt (accMul u0 u1 u2 u3 u4 u0 u1 u2 u3 u4)) floorBlk)
        (maximumf (sqrt (accMul v0 v1 v2 v3 v4 v0 v1 v2 v3 v4)) floorBlk)))
    shapeCasts_S64x128_S1x64x128
/-- The stored distance block. -/
def distBlk (u0 u1 u2 u3 u4 v0 v1 v2 v3 v4 : Vec F S1x64x60x128 .f32) : FVec F S1x64x128 .f32 :=
  shapeCast S1x64x128
    (sqrt (addf (accSqd u0 u1 u2 u3 u4 v0 v1 v2 v3 v4)
      (mulf (sitofp .f32 (extui 32 (cmpf .olt (accSqd u0 u1 u2 u3 u4 v0 v1 v2 v3 v4) bndBlk) natLt_1_32)) bndBlk)))
    shapeCasts_S64x128_S1x64x128
/-- The stored block of sums of absolute differences. -/
def absBlk (u0 u1 u2 u3 u4 v0 v1 v2 v3 v4 : Vec F S1x64x60x128 .f32) : FVec F S1x64x128 .f32 :=
  shapeCast S1x64x128 (accAbs u0 u1 u2 u3 u4 v0 v1 v2 v3 v4) shapeCasts_S64x128_S1x64x128

end Cert.KernelIdeal.Hand

end
-- ==== Proof.Spec.lean ====
/-
  The mathematics of the pairwise-distance rows, stated once for both programs.

  Two inputs x, y of shape [32, 64, 300, 128] over the extended reals. For each batch b, channel c and lane l the
  300 entries x[b, c, ·, l] and y[b, c, ·, l] form a pair of vectors, of which three numbers are taken:
    • the cosine  (Σ x·y) / (max(√Σ x², ε) · max(√Σ y², ε)),
    • the distance √(s + [s < β]·β) with s = Σ (x − y)² (a squared distance below the boundary β is pushed up by β),
    • the sum of absolute differences Σ |x − y|.
  The result has shape [32, 8192, 3]: row r = 128·c + l of batch b holds the three numbers of (b, c, l).
  Also here: a sum over 300 terms is the sum of its five consecutive runs of 60, accumulated from zero on the left,
  in any commutative monoid (so also on the extended reals, with no finiteness needed).
-/
import Idealize.ShloMosaic.PureOps.Ideal
import Idealize.ShloMosaic.PureOps.Ideal.Laws
import Idealize.ShloMosaic.Lib.ValueIdx

noncomputable section

open scoped BigOperators

namespace Cert.PairRows

open Idealize.ShloMosaic Idealize.ShloMosaic.ValueIdx

/-- An input array: one extended real per (batch, channel, position, lane). -/
abbrev In : Type := (⟨4, ![32, 64, 300, 128]⟩ : Shape).Idx → EReal
/-- The result array: one extended real per (batch, row, which of the three numbers). -/
abbrev Out : Type := (⟨3, ![32, 8192, 3]⟩ : Shape).Idx → EReal

/-- The floor ε under each norm (the f32 nearest 1e-12). -/
def eps : EReal := Ideal.ofBits .f32 0x2B8CBCCC#32
/-- The boundary β below which a squared distance is pushed up (the f32 nearest 1e-8). -/
def bnd : EReal := Ideal.ofBits .f32 0x322BCC77#32

/-- Σ over the 300 positions of u·v, at (b, c, l). -/
def dot (u v : In) (b : Fin 32) (c : Fin 64) (l : Fin 128) : EReal :=
  ∑ d : Fin 300, u (ix4 b c d l) * v (ix4 b c d l)
/-- Σ over the 300 positions of (x − y)², at (b, c, l). -/
def sqd (x y : In) (b : Fin 32) (c : Fin 64) (l : Fin 128) : EReal :=
  ∑ d : Fin 300, (x (ix4 b c d l) - y (ix4 b c d l)) * (x (ix4 b c d l) - y (ix4 b c d l))
/-- Σ over the 300 positions of |x − y|, at (b, c, l). -/
def sab (x y : In) (b : Fin 32) (c : Fin 64) (l : Fin 128) : EReal :=
  ∑ d : Fin 300, max (x (ix4 b c d l) - y (ix4 b c d l)) (-(x (ix4 b c d l) - y (ix4 b c d l)))

/-- The cosine of the pair at (b, c, l), each norm floored at ε. -/
def cosv (x y : In) (b : Fin 32) (c : Fin 64) (l : Fin 128) : EReal :=
  Ideal.div (dot x y b c l) (max (Ideal.sqrt (dot x x b c l)) eps * max (Ideal.sqrt (dot y y b c l)) eps)
/-- The indicator of s < β as the number 0 or 1. -/
def below (s : EReal) : EReal := (((Ideal.cmp .olt s bnd).toNat : ℝ) : EReal)
/-- The distance of the pair at (b, c, l), its square pushed up by β when below β. -/
def dist (x y : In) (b : Fin 32) (c : Fin 64) (l : Fin 128) : EReal :=
  Ideal.sqrt (sqd x y b c l + below (sqd x y b c l) * bnd)

/-- The three numbers of (b, c, l), by position. -/
def row (x y : In) (b : Fin 32) (c : Fin 64) (l : Fin 128) : Fin 3 → EReal
  | ⟨0, _⟩ => cosv x y b c l
  | ⟨1, _⟩ => dist x y b c l
  | ⟨2, _⟩ => sab x y b c l

/-- Row r of the result is channel r / 128, lane r % 128. -/
def chan (r : Fin 8192) : Fin 64 := ⟨r.val / 128, by omega⟩
def lane (r : Fin 8192) : Fin 128 := ⟨r.val % 128, by omega⟩

/-- The whole result as one function of the two inputs. -/
def G (x y : In) : Out := fun i => row x y (i 0) (chan (i 1)) (lane (i 1)) (i 2)

theorem G_ix3 (x y : In) (b : Fin 32) (r : Fin 8192) (k : Fin 3) :
    G x y (ix3 b r k) = row x y b (chan r) (lane r) k := rfl

/-- The indicator read either way from the comparison's bit: the bit widened to 32 bits and read signed is the
    bit read unsigned. -/
theorem below_signed (s : EReal) :
    ((((Ideal.cmp .olt s bnd).setWidth 32).toInt : ℝ) : EReal) = below s := by
  unfold below
  rcases BitVec.eq_zero_or_eq_one (Ideal.cmp .olt s bnd) with h | h <;> rw [h] <;> simp

/-- A sum over 300 terms is its five consecutive runs of 60 accumulated from zero, leftmost first. -/
theorem sum_five_runs {M : Type*} [AddCommMonoid M] (f : Fin 300 → M) (g0 g1 g2 g3 g4 : Fin 60 → M)
    (h0 : ∀ e : Fin 60, g0 e = f ⟨e.val, by omega⟩) (h1 : ∀ e : Fin 60, g1 e = f ⟨60 + e.val, by omega⟩)
    (h2 : ∀ e : Fin 60, g2 e = f ⟨120 + e.val, by omega⟩) (h3 : ∀ e : Fin 60, g3 e = f ⟨180 + e.val, by omega⟩)
    (h4 : ∀ e : Fin 60, g4 e = f ⟨240 + e.val, by omega⟩) :
    ((((0 + ∑ e, g0 e) + ∑ e, g1 e) + ∑ e, g2 e) + ∑ e, g3 e) + ∑ e, g4 e = ∑ d, f d := by
  let F : ℕ → M := fun n => if h : n < 300 then f ⟨n, h⟩ else 0
  have hf : ∀ d : Fin 300, f d = F d.val := fun d => by simp [F, d.isLt]
  have hg : ∀ (g : Fin 60 → M) (o : ℕ) (ho : o + 60 ≤ 300), (∀ e : Fin 60, g e = f ⟨o + e.val, by omega⟩) →
      ∑ e, g e = ∑ n ∈ Finset.range 60, F (o + n) := by
    intro g o ho hg
    rw [← Fin.sum_univ_eq_sum_range (fun n => F (o + n)) 60]
    refine Finset.sum_congr rfl fun e _ => ?_
    rw [hg e, hf]
  rw [hg g0 0 (by omega) (fun e => by rw [h0 e]; congr 1; simp), hg g1 60 (by omega) h1, hg g2 120 (by omega) h2,
    hg g3 180 (by omega) h3, hg g4 240 (by omega) h4]
  rw [Finset.sum_congr rfl (fun d _ => hf d), Fin.sum_univ_eq_sum_range F 300]
  rw [show (300 : ℕ) = 60 + 60 + 60 + 60 + 60 from rfl, Finset.sum_range_add, Finset.sum_range_add, Finset.sum_range_add,
    Finset.sum_range_add]
  simp only [zero_add]

end Cert.PairRows

end
-- ==== Proof.BlockRows.lean ====
/-
  The three blocks the kernel body stores, read at one entry.

  The body loads each input block [1, 64, 300, 128] as five consecutive pieces [1, 64, 60, 128] along the
  position axis. With the leading unit axis dropped, a piece's sum over its 60 positions at (c, l) is a sum over
  `Fin 60`; five such sums accumulated from zero, first piece first, are the sum over all 300 positions. So each of
  the running sums is the specification's sum at (b, c, l): the products Σ u·v, the squared differences Σ (x − y)²,
  the absolute differences Σ |x − y|. The stored blocks apply to these the same pointwise operations as the
  specification (quotient by the floored norms; root of the squared distance pushed up below the boundary), and
  the final cast only adds a leading unit axis. No finiteness of the inputs is used: only the laws of a
  commutative monoid for + on the extended reals.
-/
import proofs.«164841_j84593675862345_2_alg».proof.Proof.BodyTermKI
import proofs.«164841_j84593675862345_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PairRows.Blk

open Idealize.ShloMosaic Idealize.ShloMosaic.ValueIdx Cert.KernelIdeal Cert.KernelIdeal.Hand
open Cert.KernelIdeal.Facts₀

variable [Cert.KernelIdeal.Facts]

/-- The five pieces `u0 … u4` are the five consecutive runs of 60 positions of block `b` of `x`. -/
structure Runs (x : In) (b : Fin 32) (u0 u1 u2 u3 u4 : Vec Ideal S1x64x60x128 .f32) : Prop where
  r0 : ∀ (c : Fin 64) (e : Fin 60) (l : Fin 128), u0 (ix4 (0 : Fin 1) c e l) = x (ix4 b c ⟨e.val, by omega⟩ l)
  r1 : ∀ (c : Fin 64) (e : Fin 60) (l : Fin 128), u1 (ix4 (0 : Fin 1) c e l) = x (ix4 b c ⟨60 + e.val, by omega⟩ l)
  r2 : ∀ (c : Fin 64) (e : Fin 60) (l : Fin 128), u2 (ix4 (0 : Fin 1) c e l) = x (ix4 b c ⟨120 + e.val, by omega⟩ l)
  r3 : ∀ (c : Fin 64) (e : Fin 60) (l : Fin 128), u3 (ix4 (0 : Fin 1) c e l) = x (ix4 b c ⟨180 + e.val, by omega⟩ l)
  r4 : ∀ (c : Fin 64) (e : Fin 60) (l : Fin 128), u4 (ix4 (0 : Fin 1) c e l) = x (ix4 b c ⟨240 + e.val, by omega⟩ l)

/-- A piece with its leading unit axis dropped reads, at (c, e, l), the piece at (0, c, e, l). -/
theorem piece_apply (v : Vec Ideal S1x64x60x128 .f32) (c : Fin 64) (e : Fin 60) (l : Fin 128) :
    piece (F := Ideal) v (ix3 c e l) = v (ix4 (0 : Fin 1) c e l) :=
  shapeCast_1abc_abc_apply v shapeCasts_S1x64x60x128_S64x60x128 c e l

/-- The sum over a piece's 60 positions, at (c, l), is the sum over `Fin 60` of the piece at (c, e, l). -/
theorem sum60_apply (w : FVec Ideal S64x60x128 .f32) (c : Fin 64) (l : Fin 128) :
    sum60 (F := Ideal) w (ix2 c l) = ∑ e : Fin 60, w (ix3 c e l) := by
  refine (Ideal.multiReduction_add_single w 0x00000000#32 reduces_S64x60x128_S64x128 (.inl rfl) rfl (ix2 c l)).trans ?_
  refine Finset.sum_congr rfl fun e _ => congrArg w ?_
  funext d
  exact Fin.ext (by match d with | ⟨0, _⟩ => rfl | ⟨1, _⟩ => rfl | ⟨2, _⟩ => rfl)

/-- The zero every running sum starts from is the number 0 at every entry. -/
theorem zero_apply (j : S64x128.Idx) : zero (F := Ideal) j = (0 : EReal) :=
  Ideal.ofBits_zero_f32

/-- Five contributions accumulated from zero, entry by entry. -/
theorem acc5_apply (s0 s1 s2 s3 s4 : FVec Ideal S64x128 .f32) (j : S64x128.Idx) :
    acc5 (F := Ideal) s0 s1 s2 s3 s4 j = ((((0 + s0 j) + s1 j) + s2 j) + s3 j) + s4 j := by
  show ((((zero (F := Ideal) j + s0 j) + s1 j) + s2 j) + s3 j) + s4 j = _
  rw [zero_apply]

/-- Five pieces' sums accumulated from zero are the sum over all 300 positions of any `f` the pieces are the
    consecutive runs of. -/
theorem acc5_sum60 (w0 w1 w2 w3 w4 : FVec Ideal S64x60x128 .f32) (f : Fin 300 → EReal) (c : Fin 64) (l : Fin 128)
    (h0 : ∀ e : Fin 60, w0 (ix3 c e l) = f ⟨e.val, by omega⟩)
    (h1 : ∀ e : Fin 60, w1 (ix3 c e l) = f ⟨60 + e.val, by omega⟩)
    (h2 : ∀ e : Fin 60, w2 (ix3 c e l) = f ⟨120 + e.val, by omega⟩)
    (h3 : ∀ e : Fin 60, w3 (ix3 c e l) = f ⟨180 + e.val, by omega⟩)
    (h4 : ∀ e : Fin 60, w4 (ix3 c e l) = f ⟨240 + e.val, by omega⟩) :
    acc5 (F := Ideal) (sum60 w0) (sum60 w1) (sum60 w2) (sum60 w3) (sum60 w4) (ix2 c l) = ∑ d, f d := by
  rw [acc5_apply, sum60_apply, sum60_apply, sum60_apply, sum60_apply, sum60_apply]
  exact sum_five_runs f _ _ _ _ _ h0 h1 h2 h3 h4

/-- The running sum of products is the specification's Σ p·q at (b, c, l). -/
theorem accMul_apply (p q : In) (b : Fin 32) (u0 u1 u2 u3 u4 v0 v1 v2 v3 v4 : Vec Ideal S1x64x60x128 .f32)
    (hu : Runs p b u0 u1 u2 u3 u4) (hv : Runs q b v0 v1 v2 v3 v4) (c : Fin 64) (l : Fin 128) :
    accMul (F := Ideal) u0 u1 u2 u3 u4 v0 v1 v2 v3 v4 (ix2 c l) = dot p q b c l := by
  refine acc5_sum60 _ _ _ _ _ (fun d => p (ix4 b c d l) * q (ix4 b c d l)) c l ?_ ?_ ?_ ?_ ?_
  · intro e; rw [mulf_apply, piece_apply, piece_apply, hu.r0, hv.r0]
  · intro e; rw [mulf_apply, piece_apply, piece_apply, hu.r1, hv.r1]
  · intro e; rw [mulf_apply, piece_apply, piece_apply, hu.r2, hv.r2]
  · intro e; rw [mulf_apply, piece_apply, piece_apply, hu.r3, hv.r3]
  · intro e; rw [mulf_apply, piece_apply, piece_apply, hu.r4, hv.r4]

/-- The running sum of squared differences is the specification's Σ (x − y)² at (b, c, l). -/
theorem accSqd_apply (x y : In) (b : Fin 32) (u0 u1 u2 u3 u4 v0 v1 v2 v3 v4 : Vec Ideal S1x64x60x128 .f32)
    (hu : Runs x b u0 u1 u2 u3 u4) (hv : Runs y b v0 v1 v2 v3 v4) (c : Fin 64) (l : Fin 128) :
    accSqd (F := Ideal) u0 u1 u2 u3 u4 v0 v1 v2 v3 v4 (ix2 c l) = sqd x y b c l := by
  refine acc5_sum60 _ _ _ _ _
    (fun d => (x (ix4 b c d l) - y (ix4 b c d l)) * (x (ix4 b c d l) - y (ix4 b c d l))) c l ?_ ?_ ?_ ?_ ?_
  · intro e; rw [mulf_apply, subf_apply, piece_apply, piece_apply, hu.r0, hv.r0]
  · intro e; rw [mulf_apply, subf_apply, piece_apply, piece_apply, hu.r1, hv.r1]
  · intro e; rw [mulf_apply, subf_apply, piece_apply, piece_apply, hu.r2, hv.r2]
  · intro e; rw [mulf_apply, subf_apply, piece_apply, piece_apply, hu.r3, hv.r3]
  · intro e; rw [mulf_apply, subf_apply, piece_apply, piece_apply, hu.r4, hv.r4]

/-- The absolute value of a block, entry by entry, is the larger of the entry and its negative. -/
theorem absf_apply {s : Shape} (a : FVec Ideal s .f32) (i : s.Idx) : absf a i = max (a i) (-(a i)) := rfl

/-- The running sum of absolute differences is the specification's Σ |x − y| at (b, c, l). -/
theorem accAbs_apply (x y : In) (b : Fin 32) (u0 u1 u2 u3 u4 v0 v1 v2 v3 v4 : Vec Ideal S1x64x60x128 .f32)
    (hu : Runs x b u0 u1 u2 u3 u4) (hv : Runs y b v0 v1 v2 v3 v4) (c : Fin 64) (l : Fin 128) :
    accAbs (F := Ideal) u0 u1 u2 u3 u4 v0 v1 v2 v3 v4 (ix2 c l) = sab x y b c l := by
  refine acc5_sum60 _ _ _ _ _
    (fun d => max (x (ix4 b c d l) - y (ix4 b c d l)) (-(x (ix4 b c d l) - y (ix4 b c d l)))) c l ?_ ?_ ?_ ?_ ?_
  · intro e; rw [absf_apply, subf_apply, piece_apply, piece_apply, hu.r0, hv.r0]
  · intro e; rw [absf_apply, subf_apply, piece_apply, piece_apply, hu.r1, hv.r1]
  · intro e; rw [absf_apply, subf_apply, piece_apply, piece_apply, hu.r2, hv.r2]
  · intro e; rw [absf_apply, subf_apply, piece_apply, piece_apply, hu.r3, hv.r3]
  · intro e; rw [absf_apply, subf_apply, piece_apply, piece_apply, hu.r4, hv.r4]

/-- A [64, 128] block with a leading unit axis added reads, at (0, c, l), the block at (c, l). -/
theorem unit_apply (w : FVec Ideal S64x128 .f32) (c : Fin 64) (l : Fin 128) :
    shapeCast S1x64x128 w shapeCasts_S64x128_S1x64x128 (ix3 (0 : Fin 1) c l) = w (ix2 c l) :=
  shapeCast_ab_1ab_apply w shapeCasts_S64x128_S1x64x128 0 c l

/-- The stored cosine block at (0, c, l) is the specification's cosine at (b, c, l). -/
theorem cosBlk_entry (x y : In) (b : Fin 32) (u0 u1 u2 u3 u4 v0 v1 v2 v3 v4 : Vec Ideal S1x64x60x128 .f32)
      (hu0 : ∀ (c : Fin 64) (e : Fin 60) (l : Fin 128), u0 (ix4 (0 : Fin 1) c e l) = x (ix4 b c ⟨e.val, by omega⟩ l))
      (hu1 : ∀ (c : Fin 64) (e : Fin 60) (l : Fin 128), u1 (ix4 (0 : Fin 1) c e l) = x (ix4 b c ⟨60 + e.val, by omega⟩ l))
      (hu2 : ∀ (c : Fin 64) (e : Fin 60) (l : Fin 128), u2 (ix4 (0 : Fin 1) c e l) = x (ix4 b c ⟨120 + e.val, by omega⟩ l))
      (hu3 : ∀ (c : Fin 64) (e : Fin 60) (l : Fin 128), u3 (ix4 (0 : Fin 1) c e l) = x (ix4 b c ⟨180 + e.val, by omega⟩ l))
      (hu4 : ∀ (c : Fin 64) (e : Fin 60) (l : Fin 128), u4 (ix4 (0 : Fin 1) c e l) = x (ix4 b c ⟨240 + e.val, by omega⟩ l))
      (hv0 : ∀ (c : Fin 64) (e : Fin 60) (l : Fin 128), v0 (ix4 (0 : Fin 1) c e l) = y (ix4 b c ⟨e.val, by omega⟩ l))
      (hv1 : ∀ (c : Fin 64) (e : Fin 60) (l : Fin 128), v1 (ix4 (0 : Fin 1) c e l) = y (ix4 b c ⟨60 + e.val, by omega⟩ l))
      (hv2 : ∀ (c : Fin 64) (e : Fin 60) (l : Fin 128), v2 (ix4 (0 : Fin 1) c e l) = y (ix4 b c ⟨120 + e.val, by omega⟩ l))
      (hv3 : ∀ (c : Fin 64) (e : Fin 60) (l : Fin 128), v3 (ix4 (0 : Fin 1) c e l) = y (ix4 b c ⟨180 + e.val, by omega⟩ l))
      (hv4 : ∀ (c : Fin 64) (e : Fin 60) (l : Fin 128), v4 (ix4 (0 : Fin 1) c e l) = y (ix4 b c ⟨240 + e.val, by omega⟩ l))
      (c : Fin 64) (l : Fin 128) :
    cosBlk (F := Ideal) u0 u1 u2 u3 u4 v0 v1 v2 v3 v4 (ix3 (0 : Fin 1) c l) = cosv x y b c l := by
  have hu : Runs x b u0 u1 u2 u3 u4 := ⟨hu0, hu1, hu2, hu3, hu4⟩
  have hv : Runs y b v0 v1 v2 v3 v4 := ⟨hv0, hv1, hv2, hv3, hv4⟩
  unfold cosBlk
  rw [unit_apply, divf_apply, mulf_apply, maximumf_apply, maximumf_apply]
  show Ideal.div (accMul (F := Ideal) u0 u1 u2 u3 u4 v0 v1 v2 v3 v4 (ix2 c l))
      (max (Ideal.sqrt (accMul (F := Ideal) u0 u1 u2 u3 u4 u0 u1 u2 u3 u4 (ix2 c l))) eps
        * max (Ideal.sqrt (accMul (F := Ideal) v0 v1 v2 v3 v4 v0 v1 v2 v3 v4 (ix2 c l))) eps) = _
  rw [accMul_apply x y b _ _ _ _ _ _ _ _ _ _ hu hv, accMul_apply x x b _ _ _ _ _ _ _ _ _ _ hu hu,
    accMul_apply y y b _ _ _ _ _ _ _ _ _ _ hv hv]
  rfl

/-- The stored distance block at (0, c, l) is the specification's distance at (b, c, l). -/
theorem distBlk_entry (x y : In) (b : Fin 32) (u0 u1 u2 u3 u4 v0 v1 v2 v3 v4 : Vec Ideal S1x64x60x128 .f32)
      (hu0 : ∀ (c : Fin 64) (e : Fin 60) (l : Fin 128), u0 (ix4 (0 : Fin 1) c e l) = x (ix4 b c ⟨e.val, by omega⟩ l))
      (hu1 : ∀ (c : Fin 64) (e : Fin 60) (l : Fin 128), u1 (ix4 (0 : Fin 1) c e l) = x (ix4 b c ⟨60 + e.val, by omega⟩ l))
      (hu2 : ∀ (c : Fin 64) (e : Fin 60) (l : Fin 128), u2 (ix4 (0 : Fin 1) c e l) = x (ix4 b c ⟨120 + e.val, by omega⟩ l))
      (hu3 : ∀ (c : Fin 64) (e : Fin 60) (l : Fin 128), u3 (ix4 (0 : Fin 1) c e l) = x (ix4 b c ⟨180 + e.val, by omega⟩ l))
      (hu4 : ∀ (c : Fin 64) (e : Fin 60) (l : Fin 128), u4 (ix4 (0 : Fin 1) c e l) = x (ix4 b c ⟨240 + e.val, by omega⟩ l))
      (hv0 : ∀ (c : Fin 64) (e : Fin 60) (l : Fin 128), v0 (ix4 (0 : Fin 1) c e l) = y (ix4 b c ⟨e.val, by omega⟩ l))
      (hv1 : ∀ (c : Fin 64) (e : Fin 60) (l : Fin 128), v1 (ix4 (0 : Fin 1) c e l) = y (ix4 b c ⟨60 + e.val, by omega⟩ l))
      (hv2 : ∀ (c : Fin 64) (e : Fin 60) (l : Fin 128), v2 (ix4 (0 : Fin 1) c e l) = y (ix4 b c ⟨120 + e.val, by omega⟩ l))
      (hv3 : ∀ (c : Fin 64) (e : Fin 60) (l : Fin 128), v3 (ix4 (0 : Fin 1) c e l) = y (ix4 b c ⟨180 + e.val, by omega⟩ l))
      (hv4 : ∀ (c : Fin 64) (e : Fin 60) (l : Fin 128), v4 (ix4 (0 : Fin 1) c e l) = y (ix4 b c ⟨240 + e.val, by omega⟩ l))
      (c : Fin 64) (l : Fin 128) :
    distBlk (F := Ideal) u0 u1 u2 u3 u4 v0 v1 v2 v3 v4 (ix3 (0 : Fin 1) c l) = dist x y b c l := by
  have hu : Runs x b u0 u1 u2 u3 u4 := ⟨hu0, hu1, hu2, hu3, hu4⟩
  have hv : Runs y b v0 v1 v2 v3 v4 := ⟨hv0, hv1, hv2, hv3, hv4⟩
  unfold distBlk
  rw [unit_apply]
  show Ideal.sqrt (accSqd (F := Ideal) u0 u1 u2 u3 u4 v0 v1 v2 v3 v4 (ix2 c l)
      + ((((Ideal.cmp .olt (accSqd (F := Ideal) u0 u1 u2 u3 u4 v0 v1 v2 v3 v4 (ix2 c l)) bnd).setWidth 32).toInt : ℝ) : EReal)
        * bnd) = _
  rw [accSqd_apply x y b _ _ _ _ _ _ _ _ _ _ hu hv, below_signed]
  rfl

/-- The stored block of sums of absolute differences at (0, c, l) is the specification's sum at (b, c, l). -/
theorem absBlk_entry (x y : In) (b : Fin 32) (u0 u1 u2 u3 u4 v0 v1 v2 v3 v4 : Vec Ideal S1x64x60x128 .f32)
      (hu0 : ∀ (c : Fin 64) (e : Fin 60) (l : Fin 128), u0 (ix4 (0 : Fin 1) c e l) = x (ix4 b c ⟨e.val, by omega⟩ l))
      (hu1 : ∀ (c : Fin 64) (e : Fin 60) (l : Fin 128), u1 (ix4 (0 : Fin 1) c e l) = x (ix4 b c ⟨60 + e.val, by omega⟩ l))
      (hu2 : ∀ (c : Fin 64) (e : Fin 60) (l : Fin 128), u2 (ix4 (0 : Fin 1) c e l) = x (ix4 b c ⟨120 + e.val, by omega⟩ l))
      (hu3 : ∀ (c : Fin 64) (e : Fin 60) (l : Fin 128), u3 (ix4 (0 : Fin 1) c e l) = x (ix4 b c ⟨180 + e.val, by omega⟩ l))
      (hu4 : ∀ (c : Fin 64) (e : Fin 60) (l : Fin 128), u4 (ix4 (0 : Fin 1) c e l) = x (ix4 b c ⟨240 + e.val, by omega⟩ l))
      (hv0 : ∀ (c : Fin 64) (e : Fin 60) (l : Fin 128), v0 (ix4 (0 : Fin 1) c e l) = y (ix4 b c ⟨e.val, by omega⟩ l))
      (hv1 : ∀ (c : Fin 64) (e : Fin 60) (l : Fin 128), v1 (ix4 (0 : Fin 1) c e l) = y (ix4 b c ⟨60 + e.val, by omega⟩ l))
      (hv2 : ∀ (c : Fin 64) (e : Fin 60) (l : Fin 128), v2 (ix4 (0 : Fin 1) c e l) = y (ix4 b c ⟨120 + e.val, by omega⟩ l))
      (hv3 : ∀ (c : Fin 64) (e : Fin 60) (l : Fin 128), v3 (ix4 (0 : Fin 1) c e l) = y (ix4 b c ⟨180 + e.val, by omega⟩ l))
      (hv4 : ∀ (c : Fin 64) (e : Fin 60) (l : Fin 128), v4 (ix4 (0 : Fin 1) c e l) = y (ix4 b c ⟨240 + e.val, by omega⟩ l))
      (c : Fin 64) (l : Fin 128) :
    absBlk (F := Ideal) u0 u1 u2 u3 u4 v0 v1 v2 v3 v4 (ix3 (0 : Fin 1) c l) = sab x y b c l := by
  have hu : Runs x b u0 u1 u2 u3 u4 := ⟨hu0, hu1, hu2, hu3, hu4⟩
  have hv : Runs y b v0 v1 v2 v3 v4 := ⟨hv0, hv1, hv2, hv3, hv4⟩
  unfold absBlk
  rw [unit_apply, accAbs_apply x y b _ _ _ _ _ _ _ _ _ _ hu hv]

end Cert.PairRows.Blk

end
-- ==== Proof.FrameKI.lean ====
/-
  The frame of the program: its one pipelined kernel call followed by five host lines (three reshapes of the
  kernel's three results to a trailing unit axis, their join along that axis, and the merge of the channel and lane
  axes into rows). Every weakly fair execution terminates without a fault; the two argument arrays end as launched;
  each of the kernel's three result arrays ends, block by block, at what the body computed from the two input blocks
  of the same grid point; every other buffer ends at what the five host lines compute.
  The body reads each of its two input blocks in five pieces of 60 positions and overwrites each of its three output
  blocks whole, so after the body an output's staging buffer holds one piece: the stored block.
-/
import proofs.«164841_j84593675862345_2_alg».proof.Proof.Gen.KernelIdeal.Launch
import proofs.«164841_j84593675862345_2_alg».proof.Proof.Gen.KernelIdeal.Skeleton
import proofs.«164841_j84593675862345_2_alg».proof.Proof.Gen.KernelIdeal.Points
import proofs.«164841_j84593675862345_2_alg».proof.Proof.BodyTermKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the kernel call -/

/-- A core's buffer contents when the kernel call is entered: as launched (no host line precedes the call). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- The program is the kernel call continued by the five host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The five lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the kernel call's five arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The kernel call finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The blocks -/

/-- Window w's block at grid point t, read off its array as the kernel call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a run to the library's post: both arguments are staged inputs, which end at their
    entry contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## The body's accesses -/

/-- The five pieces of an input block: 60 consecutive positions each. -/
abbrev rI0 : Rect S1x64x300x128 := Rect.unit (s := S1x64x300x128) ![0, 0, 0, 0] S1x64x60x128.size inb_S1x64x300x128_S1x64x60x128_0_0_0_0
abbrev rI1 : Rect S1x64x300x128 := Rect.unit (s := S1x64x300x128) ![0, 0, 60, 0] S1x64x60x128.size inb_S1x64x300x128_S1x64x60x128_0_0_60_0
abbrev rI2 : Rect S1x64x300x128 := Rect.unit (s := S1x64x300x128) ![0, 0, 120, 0] S1x64x60x128.size inb_S1x64x300x128_S1x64x60x128_0_0_120_0
abbrev rI3 : Rect S1x64x300x128 := Rect.unit (s := S1x64x300x128) ![0, 0, 180, 0] S1x64x60x128.size inb_S1x64x300x128_S1x64x60x128_0_0_180_0
abbrev rI4 : Rect S1x64x300x128 := Rect.unit (s := S1x64x300x128) ![0, 0, 240, 0] S1x64x60x128.size inb_S1x64x300x128_S1x64x60x128_0_0_240_0
/-- An output block, whole. -/
abbrev rO : Rect S1x64x128 := Rect.unit (s := S1x64x128) ![0, 0, 0] S1x64x128.size inb_S1x64x128_S1x64x128_0_0_0

/-! ## What the body leaves in each output window's buffer -/

def out0_2 (x0 x1 : Vec F S1x64x300x128 .f32) : Vec F S1x64x128 .f32 :=
  View.canon [⟨rO, cosBlk (View.ld x0 rI0) (View.ld x0 rI1) (View.ld x0 rI2) (View.ld x0 rI3) (View.ld x0 rI4)
    (View.ld x1 rI0) (View.ld x1 rI1) (View.ld x1 rI2) (View.ld x1 rI3) (View.ld x1 rI4)⟩]
def out0_3 (x0 x1 : Vec F S1x64x300x128 .f32) : Vec F S1x64x128 .f32 :=
  View.canon [⟨rO, distBlk (View.ld x0 rI0) (View.ld x0 rI1) (View.ld x0 rI2) (View.ld x0 rI3) (View.ld x0 rI4)
    (View.ld x1 rI0) (View.ld x1 rI1) (View.ld x1 rI2) (View.ld x1 rI3) (View.ld x1 rI4)⟩]
def out0_4 (x0 x1 : Vec F S1x64x300x128 .f32) : Vec F S1x64x128 .f32 :=
  View.canon [⟨rO, absBlk (View.ld x0 rI0) (View.ld x0 rI1) (View.ld x0 rI2) (View.ld x0 rI3) (View.ld x0 rI4)
    (View.ld x1 rI0) (View.ld x1 rI1) (View.ld x1 rI2) (View.ld x1 rI3) (View.ld x1 rI4)⟩]

/-- The one store of an output covers its buffer. -/
theorem coverO (p0 : Vec F S1x64x128 .f32) (y : S1x64x128.Idx) :
    ∃ pc ∈ ([⟨rO, p0⟩] : List (View.Piece (Elt F) S1x64x128 .f32)), y ∈ pc.1.set :=
  View.cover_of_tiled [⟨rO, p0⟩] S1x64x128.size (by rfl) y

/-! ## The body's triple -/

set_option maxHeartbeats 4000000 in
/-- The body on whole staging buffers, the inputs' at contents x0, x1 and the outputs' at anything, runs to the
    continuation with the inputs' as they were and each output's at its stored block. -/
theorem sound_kernel (c : Dev nD) (E : Set ℕ) (i : grid0.Coords)
    (arg2 : Memref sig .tc .vmem S1x64x300x128 .f32) (harg2 : arg2.IsWhole) (arg3 : Memref sig .tc .vmem S1x64x300x128 .f32) (harg3 : arg3.IsWhole)
    (arg4 : Memref sig .tc .vmem S1x64x128 .f32) (harg4 : arg4.IsWhole) (arg5 : Memref sig .tc .vmem S1x64x128 .f32) (harg5 : arg5.IsWhole)
    (arg6 : Memref sig .tc .vmem S1x64x128 .f32) (harg6 : arg6.IsWhole)
    (x0 : Vec F S1x64x300x128 .f32) (x1 : Vec F S1x64x300x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)
            ∗ owns (c : Thread nD τ) arg6 fullShare (out0_4 x0 x1)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverO _)
  isplitl [H3]
  · iexists _; isplitr
    swap; · iexact H3
    ipureintro
    exact View.read_writes_eq_canon _ _ _ (coverO _)
  iexists _; isplitr
  swap; · iexact H4
  ipureintro
  exact View.read_writes_eq_canon _ _ _ (coverO _)

/-! ## The pipeline's proof data -/

/-- The arrays as the kernel call finds them; after the body at point t each input's buffer at its block and each
    output's at its stored block of the two input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each of the kernel call's arrays at what the proof data
    gives and every other unscoped buffer as the five host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KernelRows.lean ====
/-
  The kernel's program read as a whole: its result buffer after the run is the specification's function of the two
  argument arrays.
  The kernel call works one batch per grid point: at point t each input window's block is the whole batch t of its
  array, read in five runs of 60 positions, and each of the three output windows' blocks is the whole batch t of its
  result array. So each result array ends, entry by entry, at the number the specification names, and the five host
  lines after the call (a trailing unit axis on each array, the three joined along it, channel and lane merged into
  rows) place number k of (b, c, l) at (b, 128·c + l, k).
-/
import proofs.«164841_j84593675862345_2_alg».proof.Proof.BlockRows
import proofs.«164841_j84593675862345_2_alg».proof.Proof.FrameKI
import proofs.«164841_j84593675862345_2_alg».proof.Proof.Spec
import Idealize.ShloMosaic.Lib.Pipeline.Value
import Idealize.ShloMosaic.Lib.ValueIdx
import Idealize.ShloMosaic.Lib.StableHlo.Run

noncomputable section

namespace Cert.PairRows.Krn

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx Idealize.ShloMosaic.StableHlo

variable (m : (ℓ : Loc nD τ sig) → Buf (Elt Ideal) ℓ) (ρ : Dev nD → PrngReg)

/-- Each window's block index at a grid point: the point's number on the batch axis, zero elsewhere. -/
theorem idx_facts : ∀ t : Fin cfg0.N, win0_0.index t = ![t.val, 0, 0, 0] ∧ win0_1.index t = ![t.val, 0, 0, 0]
    ∧ win0_2.index t = ![t.val, 0, 0] ∧ win0_3.index t = ![t.val, 0, 0] ∧ win0_4.index t = ![t.val, 0, 0] :=
  (by decide +kernel : ∀ t : Fin grid0.N, _)

/-- The batch a grid point works on. -/
def batch (t : Fin cfg0.N) : Fin 32 := ⟨t.val, by have h : t.val < grid0.N := t.isLt; rw [N_0] at h; exact h⟩

/-! ## The ten loaded pieces and the three stored blocks, placed in their arrays -/

theorem ld0_0 (c : Dev nD) (t : Fin cfg0.N) (cc : Fin 64) (e : Fin 60) (l : Fin 128) :
    View.ld (iblk m c 0 t) rI0 (ix4 (0 : Fin 1) cc e l)
      = V m c main_arg0 (ix4 (batch t) cc (⟨e.val, by omega⟩ : Fin 300) l) := by
  show V m c main_arg0 (((cfg0.win 0).blk t).view.emb (rI0.emb (ix4 (0 : Fin 1) cc e l))) = _
  refine congrArg _ ?_
  funext a; apply Fin.ext
  have h0 := (idx_facts t).1
  match a with
  | ⟨0, _⟩ =>
    show win0_0.index t (0 : Fin 4) * 1 + 1 * (0 + 1 * 0) = t.val
    rw [h0]; simp
  | ⟨1, _⟩ =>
    show win0_0.index t (1 : Fin 4) * 64 + 1 * (0 + 1 * cc.val) = cc.val
    rw [h0]; simp
  | ⟨2, _⟩ =>
    show win0_0.index t (2 : Fin 4) * 300 + 1 * (0 + 1 * e.val) = e.val
    rw [h0]; simp
  | ⟨3, _⟩ =>
    show win0_0.index t (3 : Fin 4) * 128 + 1 * (0 + 1 * l.val) = l.val
    rw [h0]; simp

theorem ld0_1 (c : Dev nD) (t : Fin cfg0.N) (cc : Fin 64) (e : Fin 60) (l : Fin 128) :
    View.ld (iblk m c 0 t) rI1 (ix4 (0 : Fin 1) cc e l)
      = V m c main_arg0 (ix4 (batch t) cc (⟨60 + e.val, by omega⟩ : Fin 300) l) := by
  show V m c main_arg0 (((cfg0.win 0).blk t).view.emb (rI1.emb (ix4 (0 : Fin 1) cc e l))) = _
  refine congrArg _ ?_
  funext a; apply Fin.ext
  have h0 := (idx_facts t).1
  match a with
  | ⟨0, _⟩ =>
    show win0_0.index t (0 : Fin 4) * 1 + 1 * (0 + 1 * 0) = t.val
    rw [h0]; simp
  | ⟨1, _⟩ =>
    show win0_0.index t (1 : Fin 4) * 64 + 1 * (0 + 1 * cc.val) = cc.val
    rw [h0]; simp
  | ⟨2, _⟩ =>
    show win0_0.index t (2 : Fin 4) * 300 + 1 * (60 + 1 * e.val) = 60 + e.val
    rw [h0]; simp
  | ⟨3, _⟩ =>
    show win0_0.index t (3 : Fin 4) * 128 + 1 * (0 + 1 * l.val) = l.val
    rw [h0]; simp

theorem ld0_2 (c : Dev nD) (t : Fin cfg0.N) (cc : Fin 64) (e : Fin 60) (l : Fin 128) :
    View.ld (iblk m c 0 t) rI2 (ix4 (0 : Fin 1) cc e l)
      = V m c main_arg0 (ix4 (batch t) cc (⟨120 + e.val, by omega⟩ : Fin 300) l) := by
  show V m c main_arg0 (((cfg0.win 0).blk t).view.emb (rI2.emb (ix4 (0 : Fin 1) cc e l))) = _
  refine congrArg _ ?_
  funext a; apply Fin.ext
  have h0 := (idx_facts t).1
  match a with
  | ⟨0, _⟩ =>
    show win0_0.index t (0 : Fin 4) * 1 + 1 * (0 + 1 * 0) = t.val
    rw [h0]; simp
  | ⟨1, _⟩ =>
    show win0_0.index t (1 : Fin 4) * 64 + 1 * (0 + 1 * cc.val) = cc.val
    rw [h0]; simp
  | ⟨2, _⟩ =>
    show win0_0.index t (2 : Fin 4) * 300 + 1 * (120 + 1 * e.val) = 120 + e.val
    rw [h0]; simp
  | ⟨3, _⟩ =>
    show win0_0.index t (3 : Fin 4) * 128 + 1 * (0 + 1 * l.val) = l.val
    rw [h0]; simp

theorem ld0_3 (c : Dev nD) (t : Fin cfg0.N) (cc : Fin 64) (e : Fin 60) (l : Fin 128) :
    View.ld (iblk m c 0 t) rI3 (ix4 (0 : Fin 1) cc e l)
      = V m c main_arg0 (ix4 (batch t) cc (⟨180 + e.val, by omega⟩ : Fin 300) l) := by
  show V m c main_arg0 (((cfg0.win 0).blk t).view.emb (rI3.emb (ix4 (0 : Fin 1) cc e l))) = _
  refine congrArg _ ?_
  funext a; apply Fin.ext
  have h0 := (idx_facts t).1
  match a with
  | ⟨0, _⟩ =>
    show win0_0.index t (0 : Fin 4) * 1 + 1 * (0 + 1 * 0) = t.val
    rw [h0]; simp
  | ⟨1, _⟩ =>
    show win0_0.index t (1 : Fin 4) * 64 + 1 * (0 + 1 * cc.val) = cc.val
    rw [h0]; simp
  | ⟨2, _⟩ =>
    show win0_0.index t (2 : Fin 4) * 300 + 1 * (180 + 1 * e.val) = 180 + e.val
    rw [h0]; simp
  | ⟨3, _⟩ =>
    show win0_0.index t (3 : Fin 4) * 128 + 1 * (0 + 1 * l.val) = l.val
    rw [h0]; simp

theorem ld0_4 (c : Dev nD) (t : Fin cfg0.N) (cc : Fin 64) (e : Fin 60) (l : Fin 128) :
    View.ld (iblk m c 0 t) rI4 (ix4 (0 : Fin 1) cc e l)
      = V m c main_arg0 (ix4 (batch t) cc (⟨240 + e.val, by omega⟩ : Fin 300) l) := by
  show V m c main_arg0 (((cfg0.win 0).blk t).view.emb (rI4.emb (ix4 (0 : Fin 1) cc e l))) = _
  refine congrArg _ ?_
  funext a; apply Fin.ext
  have h0 := (idx_facts t).1
  match a with
  | ⟨0, _⟩ =>
    show win0_0.index t (0 : Fin 4) * 1 + 1 * (0 + 1 * 0) = t.val
    rw [h0]; simp
  | ⟨1, _⟩ =>
    show win0_0.index t (1 : Fin 4) * 64 + 1 * (0 + 1 * cc.val) = cc.val
    rw [h0]; simp
  | ⟨2, _⟩ =>
    show win0_0.index t (2 : Fin 4) * 300 + 1 * (240 + 1 * e.val) = 240 + e.val
    rw [h0]; simp
  | ⟨3, _⟩ =>
    show win0_0.index t (3 : Fin 4) * 128 + 1 * (0 + 1 * l.val) = l.val
    rw [h0]; simp

theorem ld1_0 (c : Dev nD) (t : Fin cfg0.N) (cc : Fin 64) (e : Fin 60) (l : Fin 128) :
    View.ld (iblk m c 1 t) rI0 (ix4 (0 : Fin 1) cc e l)
      = V m c main_arg1 (ix4 (batch t) cc (⟨e.val, by omega⟩ : Fin 300) l) := by
  show V m c main_arg1 (((cfg0.win 1).blk t).view.emb (rI0.emb (ix4 (0 : Fin 1) cc e l))) = _
  refine congrArg _ ?_
  funext a; apply Fin.ext
  have h0 := (idx_facts t).2.1
  match a with
  | ⟨0, _⟩ =>
    show win0_1.index t (0 : Fin 4) * 1 + 1 * (0 + 1 * 0) = t.val
    rw [h0]; simp
  | ⟨1, _⟩ =>
    show win0_1.index t (1 : Fin 4) * 64 + 1 * (0 + 1 * cc.val) = cc.val
    rw [h0]; simp
  | ⟨2, _⟩ =>
    show win0_1.index t (2 : Fin 4) * 300 + 1 * (0 + 1 * e.val) = e.val
    rw [h0]; simp
  | ⟨3, _⟩ =>
    show win0_1.index t (3 : Fin 4) * 128 + 1 * (0 + 1 * l.val) = l.val
    rw [h0]; simp

theorem ld1_1 (c : Dev nD) (t : Fin cfg0.N) (cc : Fin 64) (e : Fin 60) (l : Fin 128) :
    View.ld (iblk m c 1 t) rI1 (ix4 (0 : Fin 1) cc e l)
      = V m c main_arg1 (ix4 (batch t) cc (⟨60 + e.val, by omega⟩ : Fin 300) l) := by
  show V m c main_arg1 (((cfg0.win 1).blk t).view.emb (rI1.emb (ix4 (0 : Fin 1) cc e l))) = _
  refine congrArg _ ?_
  funext a; apply Fin.ext
  have h0 := (idx_facts t).2.1
  match a with
  | ⟨0, _⟩ =>
    show win0_1.index t (0 : Fin 4) * 1 + 1 * (0 + 1 * 0) = t.val
    rw [h0]; simp
  | ⟨1, _⟩ =>
    show win0_1.index t (1 : Fin 4) * 64 + 1 * (0 + 1 * cc.val) = cc.val
    rw [h0]; simp
  | ⟨2, _⟩ =>
    show win0_1.index t (2 : Fin 4) * 300 + 1 * (60 + 1 * e.val) = 60 + e.val
    rw [h0]; simp
  | ⟨3, _⟩ =>
    show win0_1.index t (3 : Fin 4) * 128 + 1 * (0 + 1 * l.val) = l.val
    rw [h0]; simp

theorem ld1_2 (c : Dev nD) (t : Fin cfg0.N) (cc : Fin 64) (e : Fin 60) (l : Fin 128) :
    View.ld (iblk m c 1 t) rI2 (ix4 (0 : Fin 1) cc e l)
      = V m c main_arg1 (ix4 (batch t) cc (⟨120 + e.val, by omega⟩ : Fin 300) l) := by
  show V m c main_arg1 (((cfg0.win 1).blk t).view.emb (rI2.emb (ix4 (0 : Fin 1) cc e l))) = _
  refine congrArg _ ?_
  funext a; apply Fin.ext
  have h0 := (idx_facts t).2.1
  match a with
  | ⟨0, _⟩ =>
    show win0_1.index t (0 : Fin 4) * 1 + 1 * (0 + 1 * 0) = t.val
    rw [h0]; simp
  | ⟨1, _⟩ =>
    show win0_1.index t (1 : Fin 4) * 64 + 1 * (0 + 1 * cc.val) = cc.val
    rw [h0]; simp
  | ⟨2, _⟩ =>
    show win0_1.index t (2 : Fin 4) * 300 + 1 * (120 + 1 * e.val) = 120 + e.val
    rw [h0]; simp
  | ⟨3, _⟩ =>
    show win0_1.index t (3 : Fin 4) * 128 + 1 * (0 + 1 * l.val) = l.val
    rw [h0]; simp

theorem ld1_3 (c : Dev nD) (t : Fin cfg0.N) (cc : Fin 64) (e : Fin 60) (l : Fin 128) :
    View.ld (iblk m c 1 t) rI3 (ix4 (0 : Fin 1) cc e l)
      = V m c main_arg1 (ix4 (batch t) cc (⟨180 + e.val, by omega⟩ : Fin 300) l) := by
  show V m c main_arg1 (((cfg0.win 1).blk t).view.emb (rI3.emb (ix4 (0 : Fin 1) cc e l))) = _
  refine congrArg _ ?_
  funext a; apply Fin.ext
  have h0 := (idx_facts t).2.1
  match a with
  | ⟨0, _⟩ =>
    show win0_1.index t (0 : Fin 4) * 1 + 1 * (0 + 1 * 0) = t.val
    rw [h0]; simp
  | ⟨1, _⟩ =>
    show win0_1.index t (1 : Fin 4) * 64 + 1 * (0 + 1 * cc.val) = cc.val
    rw [h0]; simp
  | ⟨2, _⟩ =>
    show win0_1.index t (2 : Fin 4) * 300 + 1 * (180 + 1 * e.val) = 180 + e.val
    rw [h0]; simp
  | ⟨3, _⟩ =>
    show win0_1.index t (3 : Fin 4) * 128 + 1 * (0 + 1 * l.val) = l.val
    rw [h0]; simp

theorem ld1_4 (c : Dev nD) (t : Fin cfg0.N) (cc : Fin 64) (e : Fin 60) (l : Fin 128) :
    View.ld (iblk m c 1 t) rI4 (ix4 (0 : Fin 1) cc e l)
      = V m c main_arg1 (ix4 (batch t) cc (⟨240 + e.val, by omega⟩ : Fin 300) l) := by
  show V m c main_arg1 (((cfg0.win 1).blk t).view.emb (rI4.emb (ix4 (0 : Fin 1) cc e l))) = _
  refine congrArg _ ?_
  funext a; apply Fin.ext
  have h0 := (idx_facts t).2.1
  match a with
  | ⟨0, _⟩ =>
    show win0_1.index t (0 : Fin 4) * 1 + 1 * (0 + 1 * 0) = t.val
    rw [h0]; simp
  | ⟨1, _⟩ =>
    show win0_1.index t (1 : Fin 4) * 64 + 1 * (0 + 1 * cc.val) = cc.val
    rw [h0]; simp
  | ⟨2, _⟩ =>
    show win0_1.index t (2 : Fin 4) * 300 + 1 * (240 + 1 * e.val) = 240 + e.val
    rw [h0]; simp
  | ⟨3, _⟩ =>
    show win0_1.index t (3 : Fin 4) * 128 + 1 * (0 + 1 * l.val) = l.val
    rw [h0]; simp

theorem emb2 (t : Fin cfg0.N) (cc : Fin 64) (l : Fin 128) :
    ((cfg0.win 2).blk t).view.emb (ix3 (0 : Fin 1) cc l) = ix3 (batch t) cc l := by
  funext a; apply Fin.ext
  have h0 := (idx_facts t).2.2.1
  match a with
  | ⟨0, _⟩ =>
    show win0_2.index t (0 : Fin 3) * 1 + 1 * 0 = t.val
    rw [h0]; simp
  | ⟨1, _⟩ =>
    show win0_2.index t (1 : Fin 3) * 64 + 1 * cc.val = cc.val
    rw [h0]; simp
  | ⟨2, _⟩ =>
    show win0_2.index t (2 : Fin 3) * 128 + 1 * l.val = l.val
    rw [h0]; simp

theorem emb3 (t : Fin cfg0.N) (cc : Fin 64) (l : Fin 128) :
    ((cfg0.win 3).blk t).view.emb (ix3 (0 : Fin 1) cc l) = ix3 (batch t) cc l := by
  funext a; apply Fin.ext
  have h0 := (idx_facts t).2.2.2.1
  match a with
  | ⟨0, _⟩ =>
    show win0_3.index t (0 : Fin 3) * 1 + 1 * 0 = t.val
    rw [h0]; simp
  | ⟨1, _⟩ =>
    show win0_3.index t (1 : Fin 3) * 64 + 1 * cc.val = cc.val
    rw [h0]; simp
  | ⟨2, _⟩ =>
    show win0_3.index t (2 : Fin 3) * 128 + 1 * l.val = l.val
    rw [h0]; simp

theorem emb4 (t : Fin cfg0.N) (cc : Fin 64) (l : Fin 128) :
    ((cfg0.win 4).blk t).view.emb (ix3 (0 : Fin 1) cc l) = ix3 (batch t) cc l := by
  funext a; apply Fin.ext
  have h0 := (idx_facts t).2.2.2.2
  match a with
  | ⟨0, _⟩ =>
    show win0_4.index t (0 : Fin 3) * 1 + 1 * 0 = t.val
    rw [h0]; simp
  | ⟨1, _⟩ =>
    show win0_4.index t (1 : Fin 3) * 64 + 1 * cc.val = cc.val
    rw [h0]; simp
  | ⟨2, _⟩ =>
    show win0_4.index t (2 : Fin 3) * 128 + 1 * l.val = l.val
    rw [h0]; simp

theorem hz3 : (![0, 0, 0] : Fin 3 → Nat) = fun _ => 0 := funext fun a => by fin_cases a <;> rfl

/-! ## The array of cosines -/

/-- The kernel's result array of cosines as one function of the inputs. -/
def arrCos (x y : In) : S32x64x128.Idx → EReal := fun i => cosv x y (i 0) (i 1) (i 2)
theorem arrCos_ix3 (x y : In) (b : Fin 32) (cc : Fin 64) (l : Fin 128) : arrCos x y (ix3 b cc l) = cosv x y b cc l := rfl

/-- What grid point t writes back is block t of that function: entry (c, l) of the stored block is the number of
    (batch t, c, l), the ten loaded pieces being the five runs of 60 positions of the two inputs at that batch. -/
theorem flushed2_eq (c : Dev nD) (t : Fin cfg0.N) :
    (dats m 0 c).flushed 2 t = ((cfg0.win 2).blk t).view.read (Elt Ideal) (arrCos (V m c main_arg0) (V m c main_arg1)) := by
  show (cfg0.win 2).cut (grid0.coords t) ((dats m 0 c).after 2 t) = _
  rw [after0_2]
  unfold out0_2
  rw [View.canon_unit_zero hz3]
  funext j
  obtain ⟨j0, cc, l, rfl⟩ : ∃ (j0 : Fin 1) (cc : Fin 64) (l : Fin 128), j = ix3 j0 cc l := ⟨j 0, j 1, j 2, eq_ix3 j⟩
  obtain rfl : j0 = 0 := Subsingleton.elim _ _
  show cosBlk (View.ld (iblk m c 0 t) rI0) (View.ld (iblk m c 0 t) rI1) (View.ld (iblk m c 0 t) rI2) (View.ld (iblk m c 0 t) rI3) (View.ld (iblk m c 0 t) rI4)
      (View.ld (iblk m c 1 t) rI0) (View.ld (iblk m c 1 t) rI1) (View.ld (iblk m c 1 t) rI2) (View.ld (iblk m c 1 t) rI3) (View.ld (iblk m c 1 t) rI4) (ix3 (0 : Fin 1) cc l)
    = arrCos (V m c main_arg0) (V m c main_arg1) (((cfg0.win 2).blk t).view.emb (ix3 (0 : Fin 1) cc l))
  rw [emb2 t cc l, arrCos_ix3]
  exact Cert.PairRows.Blk.cosBlk_entry (V m c main_arg0) (V m c main_arg1) (batch t) _ _ _ _ _ _ _ _ _ _
    (ld0_0 m c t) (ld0_1 m c t) (ld0_2 m c t) (ld0_3 m c t) (ld0_4 m c t)
    (ld1_0 m c t) (ld1_1 m c t) (ld1_2 m c t) (ld1_3 m c t) (ld1_4 m c t) cc l

/-- An index of the array is in point t's block iff each coordinate is in the block's range on its axis. -/
theorem mem_blk2 (t : Fin cfg0.N) (i : S32x64x128.Idx) :
    i ∈ ((cfg0.win 2).blk t).view.set ↔ ∀ a : Fin 3, win0_2.index t a * S1x64x128.size a ≤ (i a).val ∧ (i a).val < win0_2.index t a * S1x64x128.size a + S1x64x128.size a := by
  show i ∈ ((View.whole main_v0_0).slice (win0_2.rect t)).set ↔ _
  rw [View.set_slice_whole, Rect.mem_set_unit]
  exact Iff.rfl

/-- Every index (b, c, l) is in the block of the grid point numbered b. -/
theorem cover2 (i : S32x64x128.Idx) : ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 128 := (i 2).isLt
  have hN : (i 0).val < grid0.N := by rw [N_0]; exact hi0
  refine ⟨⟨(i 0).val, hN⟩, flush0_2 _, ?_⟩
  rw [mem_blk2]
  have h0 := (idx_facts ⟨(i 0).val, hN⟩).2.2.1
  intro a
  match a with
  | ⟨0, _⟩ =>
    show win0_2.index ⟨(i 0).val, hN⟩ (0 : Fin 3) * 1 ≤ (i 0).val ∧ (i 0).val < win0_2.index ⟨(i 0).val, hN⟩ (0 : Fin 3) * 1 + 1
    rw [h0]; simp
  | ⟨1, _⟩ =>
    show win0_2.index ⟨(i 0).val, hN⟩ (1 : Fin 3) * 64 ≤ (i 1).val ∧ (i 1).val < win0_2.index ⟨(i 0).val, hN⟩ (1 : Fin 3) * 64 + 64
    rw [h0]; simp; omega
  | ⟨2, _⟩ =>
    show win0_2.index ⟨(i 0).val, hN⟩ (2 : Fin 3) * 128 ≤ (i 2).val ∧ (i 2).val < win0_2.index ⟨(i 0).val, hN⟩ (2 : Fin 3) * 128 + 128
    rw [h0]; simp; omega

/-- So after the run the array IS that function of the argument arrays. -/
theorem final2 (c : Dev nD) : (dats m 0 c).arrAt 2 cfg0.N = arrCos (V m c main_arg0) (V m c main_arg1) :=
  (dats m 0 c).arrAt_eq_of_cover 2 _ (fun t _ => flushed2_eq m c t) cover2

/-! ## The array of distances -/

/-- The kernel's result array of distances as one function of the inputs. -/
def arrDist (x y : In) : S32x64x128.Idx → EReal := fun i => dist x y (i 0) (i 1) (i 2)
theorem arrDist_ix3 (x y : In) (b : Fin 32) (cc : Fin 64) (l : Fin 128) : arrDist x y (ix3 b cc l) = dist x y b cc l := rfl

/-- What grid point t writes back is block t of that function: entry (c, l) of the stored block is the number of
    (batch t, c, l), the ten loaded pieces being the five runs of 60 positions of the two inputs at that batch. -/
theorem flushed3_eq (c : Dev nD) (t : Fin cfg0.N) :
    (dats m 0 c).flushed 3 t = ((cfg0.win 3).blk t).view.read (Elt Ideal) (arrDist (V m c main_arg0) (V m c main_arg1)) := by
  show (cfg0.win 3).cut (grid0.coords t) ((dats m 0 c).after 3 t) = _
  rw [after0_3]
  unfold out0_3
  rw [View.canon_unit_zero hz3]
  funext j
  obtain ⟨j0, cc, l, rfl⟩ : ∃ (j0 : Fin 1) (cc : Fin 64) (l : Fin 128), j = ix3 j0 cc l := ⟨j 0, j 1, j 2, eq_ix3 j⟩
  obtain rfl : j0 = 0 := Subsingleton.elim _ _
  show distBlk (View.ld (iblk m c 0 t) rI0) (View.ld (iblk m c 0 t) rI1) (View.ld (iblk m c 0 t) rI2) (View.ld (iblk m c 0 t) rI3) (View.ld (iblk m c 0 t) rI4)
      (View.ld (iblk m c 1 t) rI0) (View.ld (iblk m c 1 t) rI1) (View.ld (iblk m c 1 t) rI2) (View.ld (iblk m c 1 t) rI3) (View.ld (iblk m c 1 t) rI4) (ix3 (0 : Fin 1) cc l)
    = arrDist (V m c main_arg0) (V m c main_arg1) (((cfg0.win 3).blk t).view.emb (ix3 (0 : Fin 1) cc l))
  rw [emb3 t cc l, arrDist_ix3]
  exact Cert.PairRows.Blk.distBlk_entry (V m c main_arg0) (V m c main_arg1) (batch t) _ _ _ _ _ _ _ _ _ _
    (ld0_0 m c t) (ld0_1 m c t) (ld0_2 m c t) (ld0_3 m c t) (ld0_4 m c t)
    (ld1_0 m c t) (ld1_1 m c t) (ld1_2 m c t) (ld1_3 m c t) (ld1_4 m c t) cc l

/-- An index of the array is in point t's block iff each coordinate is in the block's range on its axis. -/
theorem mem_blk3 (t : Fin cfg0.N) (i : S32x64x128.Idx) :
    i ∈ ((cfg0.win 3).blk t).view.set ↔ ∀ a : Fin 3, win0_3.index t a * S1x64x128.size a ≤ (i a).val ∧ (i a).val < win0_3.index t a * S1x64x128.size a + S1x64x128.size a := by
  show i ∈ ((View.whole main_v0_1).slice (win0_3.rect t)).set ↔ _
  rw [View.set_slice_whole, Rect.mem_set_unit]
  exact Iff.rfl

/-- Every index (b, c, l) is in the block of the grid point numbered b. -/
theorem cover3 (i : S32x64x128.Idx) : ∃ t : Fin cfg0.N, (cfg0.win 3).flush t = true ∧ i ∈ ((cfg0.win 3).blk t).view.set := by
  have hi0 : (i 0).val < 32 := (i 0).isLt
  have hi1 : (i 1).val < 64 := (i 1).isLt
  have hi2 : (i 2).val < 128 := (i 2).isLt
  have hN : (i 0).val < grid0.N := by rw [N_0]; exact hi0
  refine ⟨⟨(i 0).val, hN⟩, flush0_3 _, ?_⟩
  rw [mem_blk3]
  have h0 := (idx_facts ⟨(i 0).val, hN⟩).2.2.2.1
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [h0]; simp
  | ⟨1, _⟩ =>
    show win0_3.index ⟨(i 0).val, hN⟩ (1 : Fin 3) * 64 ≤ (i 1).val ∧ (i 1).val < win0_3.index ⟨(i 0).val, hN⟩ (1 : Fin 3) * 64 + 64
    rw [h0]; simp; omega
  | ⟨2, _⟩ =>
    show win0_3.index ⟨(i 0).val, hN⟩ (2 : Fin 3) * 128 ≤ (i 2).val ∧ (i 2).val < win0_3.index ⟨(i 0).val, hN⟩ (2 : Fin 3) * 128 + 128
    rw [h0]; simp; omega

/-- So after the run the array IS that function of the argument arrays. -/
theorem final3 (c : Dev nD) : (dats m 0 c).arrAt 3 cfg0.N = arrDist (V m c main_arg0) (V m c main_arg1) :=
  (dats m 0 c).arrAt_eq_of_cover 3 _ (fun t _ => flushed3_eq m c t) cover3

/-! ## The array of sums of absolute differences -/

/-- The kernel's result array of sums of absolute differences as one function of the inputs. -/
def arrAbs (x y : In) : S32x64x128.Idx → EReal := fun i => sab x y (i 0) (i 1) (i 2)
theorem arrAbs_ix3 (x y : In) (b : Fin 32) (cc : Fin 64) (l : Fin 128) : arrAbs x y (ix3 b cc l) = sab x y b cc l := rfl

/-- What grid point t writes back is block t of that function: entry (c, l) of the stored block is the number of
    (batch t, c, l), the ten loaded pieces being the five runs of 60 positions of the two inputs at that batch. -/
theorem flushed4_eq (c : Dev nD) (t : Fin cfg0.N) :
    (dats m 0 c).flushed 4 t = ((cfg0.win 4).blk t).view.read (Elt Ideal) (arrAbs (V m c main_arg0) (V m c main_arg1)) := by
  show (cfg0.win 4).cut (grid0.coords t) ((dats m 0 c).after 4 t) = _
  rw [after0_4]
  unfold out0_4
  rw [View.canon_unit_zero hz3]
  funext j
  obtain ⟨j0, cc, l, rfl⟩ : ∃ (j0 : Fin 1) (cc : Fin 64) (l : Fin 128), j = ix3 j0 cc l := ⟨j 0, j 1, j 2, eq_ix3 j⟩
  obtain rfl : j0 = 0 := Subsingleton.elim _ _
  show absBlk (View.ld (iblk m c 0 t) rI0) (View.ld (iblk m c 0 t) rI1) (View.ld (iblk m c 0 t) rI2) (View.ld (iblk m c 0 t) rI3) (View.ld (iblk m c 0 t) rI4)
      (View.ld (iblk m c 1 t) rI0) (View.ld (iblk m c 1 t) rI1) (View.ld (iblk m c 1 t) rI2) (View.ld (iblk m c 1 t) rI3) (View.ld (iblk m c 1 t) rI4) (ix3 (0 : Fin 1) cc l)
    = arrAbs (V m c main_arg0) (V m c main_arg1) (((cfg0.win 4).blk t).view.emb (ix3 (0 : Fin 1) cc l))
  rw [emb4 t cc l, arrAbs_ix3]
  exact Cert.PairRows.Blk.absBlk_entry (V m c main_arg0) (V m c main_arg1) (batch t) _ _ _ _ _ _ _ _ _ _
    (ld0_0 m c t) (ld0_1 m c t) (ld0_2 m c t) (ld0_3 m c t) (ld0_4 m c t)
    (ld1_0 m c t) (ld1_1 m c t) (ld1_2 m c t) (ld1_3 m c t) (ld1_4 m c t) cc l

/-- An index of the array is in point t's block iff each coordinate is in the block's range on its axis. -/
theorem mem_blk4 (t : Fin cfg0.N) (i : S32x64x128.Idx) :
    i ∈ ((cfg0.win 4).blk t).view.set ↔ ∀ a : Fin 3, win0_4.index t a * S1x64x128.size a ≤ (i a).val ∧ (i a).val < win0_4.index t a * S1x64x128.size a + S1x64x128.size a := by
  show i ∈ ((View.whole main_v0_2).slice (win0_4.rect t)).set ↔ _
  rw [View.set_slice_whole, Rect.mem_set_unit]
  exact Iff.rfl

/-- Every index (b, c, l) is in the block of the grid point numbered b. -/
theorem cover4 (i : S32x64x128.Idx) : ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 128 := (i 2).isLt
  have hN : (i 0).val < grid0.N := by rw [N_0]; exact hi0
  refine ⟨⟨(i 0).val, hN⟩, flush0_4 _, ?_⟩
  rw [mem_blk4]
  have h0 := (idx_facts ⟨(i 0).val, hN⟩).2.2.2.2
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    rw [h0]; simp
  | ⟨1, _⟩ =>
    show win0_4.index ⟨(i 0).val, hN⟩ (1 : Fin 3) * 64 ≤ (i 1).val ∧ (i 1).val < win0_4.index ⟨(i 0).val, hN⟩ (1 : Fin 3) * 64 + 64
    rw [h0]; simp; omega
  | ⟨2, _⟩ =>
    show win0_4.index ⟨(i 0).val, hN⟩ (2 : Fin 3) * 128 ≤ (i 2).val ∧ (i 2).val < win0_4.index ⟨(i 0).val, hN⟩ (2 : Fin 3) * 128 + 128
    rw [h0]; simp; omega

/-- So after the run the array IS that function of the argument arrays. -/
theorem final4 (c : Dev nD) : (dats m 0 c).arrAt 4 cfg0.N = arrAbs (V m c main_arg0) (V m c main_arg1) :=
  (dats m 0 c).arrAt_eq_of_cover 4 _ (fun t _ => flushed4_eq m c t) cover4

/-! ## The five host lines -/

/-- The five host lines as one function of the kernel's three result arrays: each array given a trailing unit axis,
    the three joined along it, and the channel and lane axes merged into rows. -/
def joinRows (a2 a3 a4 : S32x64x128.Idx → EReal) : S32x8192x3.Idx → EReal :=
  shapeCast S32x8192x3
    (concatenate S32x64x128x3 3
      [⟨S32x64x128x1, broadcastInDim S32x64x128x1 ![0, 1, 2] bcast_S32x64x128_S32x64x128x1_0_1_2 a2⟩,
       ⟨S32x64x128x1, broadcastInDim S32x64x128x1 ![0, 1, 2] bcast_S32x64x128_S32x64x128x1_0_1_2 a3⟩,
       ⟨S32x64x128x1, broadcastInDim S32x64x128x1 ![0, 1, 2] bcast_S32x64x128_S32x64x128x1_0_1_2 a4⟩]
      concatenates_S32x64x128x1_S32x64x128x1_S32x64x128x1_S32x64x128x3_d3)
    shapeCasts_S32x64x128x3_S32x8192x3

/-- A three-operand host line's result with each operand's contents at its own buffer. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- After the run the program's result buffer holds the five lines' function of the three arrays the kernel call left. -/
theorem tail_v5 (c : Dev nD) :
    Pipeline.afterTail₀ cfgs (dats m) 0 (V0 m) [hostOps1] c main_v5
      = joinRows ((dats m 0 c).arrAt 2 cfg0.N) ((dats m 0 c).arrAt 3 cfg0.N) ((dats m 0 c).arrAt 4 cfg0.N) := by
  unfold Pipeline.afterTail₀
  show StableHlo.after hostOps1 _ (Proc.devRef .tc main_v5) = _
  simp only [after_cons, after_nil]
  rw [reshape_result, nary3_result]
  repeat (first
    | rw [unary_result]
    | (rw [unary_result_ne]; rotate_left; decide))
  rw [Pipeline.withArrays_arr spec0 launch0.win.arr_inj c _ _ 2, Pipeline.withArrays_arr spec0 launch0.win.arr_inj c _ _ 3,
    Pipeline.withArrays_arr spec0 launch0.win.arr_inj c _ _ 4]
  rfl

/-- Three pieces of extent one joined along the last axis, read at position k: piece k. -/
theorem joinAt0 {α : Type} (u0 u1 u2 : S32x64x128x1.Idx → α) (b : Fin 32) (cc : Fin 64) (l : Fin 128) :
    concatenate S32x64x128x3 3 [⟨S32x64x128x1, u0⟩, ⟨S32x64x128x1, u1⟩, ⟨S32x64x128x1, u2⟩]
      concatenates_S32x64x128x1_S32x64x128x1_S32x64x128x1_S32x64x128x3_d3 (ix4 b cc l (0 : Fin 3)) = u0 (ix4 b cc l (0 : Fin 1)) :=
  concatenate_apply_piece (t := S32x64x128x3) 3 _ _ (ix4 b cc l (0 : Fin 3)) 0 (by show (0 : ℕ) < 3; decide) S32x64x128x1 u0 rfl rfl 0 rfl
    (ix4 b cc l (0 : Fin 1))
    (fun a => match a with
      | ⟨0, _⟩ => fun _ => rfl
      | ⟨1, _⟩ => fun _ => rfl
      | ⟨2, _⟩ => fun _ => rfl
      | ⟨3, _⟩ => fun h => absurd rfl h)
    rfl

theorem joinAt1 {α : Type} (u0 u1 u2 : S32x64x128x1.Idx → α) (b : Fin 32) (cc : Fin 64) (l : Fin 128) :
    concatenate S32x64x128x3 3 [⟨S32x64x128x1, u0⟩, ⟨S32x64x128x1, u1⟩, ⟨S32x64x128x1, u2⟩]
      concatenates_S32x64x128x1_S32x64x128x1_S32x64x128x1_S32x64x128x3_d3 (ix4 b cc l (1 : Fin 3)) = u1 (ix4 b cc l (0 : Fin 1)) :=
  concatenate_apply_piece (t := S32x64x128x3) 3 _ _ (ix4 b cc l (1 : Fin 3)) 1 (by show (1 : ℕ) < 3; decide) S32x64x128x1 u1 rfl rfl 1 rfl
    (ix4 b cc l (0 : Fin 1))
    (fun a => match a with
      | ⟨0, _⟩ => fun _ => rfl
      | ⟨1, _⟩ => fun _ => rfl
      | ⟨2, _⟩ => fun _ => rfl
      | ⟨3, _⟩ => fun h => absurd rfl h)
    rfl

theorem joinAt2 {α : Type} (u0 u1 u2 : S32x64x128x1.Idx → α) (b : Fin 32) (cc : Fin 64) (l : Fin 128) :
    concatenate S32x64x128x3 3 [⟨S32x64x128x1, u0⟩, ⟨S32x64x128x1, u1⟩, ⟨S32x64x128x1, u2⟩]
      concatenates_S32x64x128x1_S32x64x128x1_S32x64x128x1_S32x64x128x3_d3 (ix4 b cc l (2 : Fin 3)) = u2 (ix4 b cc l (0 : Fin 1)) :=
  concatenate_apply_piece (t := S32x64x128x3) 3 _ _ (ix4 b cc l (2 : Fin 3)) 2 (by show (2 : ℕ) < 3; decide) S32x64x128x1 u2 rfl rfl 2 rfl
    (ix4 b cc l (0 : Fin 1))
    (fun a => match a with
      | ⟨0, _⟩ => fun _ => rfl
      | ⟨1, _⟩ => fun _ => rfl
      | ⟨2, _⟩ => fun _ => rfl
      | ⟨3, _⟩ => fun h => absurd rfl h)
    rfl

/-- An array given a trailing unit axis, read there. -/
theorem unitAxis_at (a : S32x64x128.Idx → EReal) (b : Fin 32) (cc : Fin 64) (l : Fin 128) :
    broadcastInDim S32x64x128x1 ![0, 1, 2] bcast_S32x64x128_S32x64x128x1_0_1_2 a (ix4 b cc l (0 : Fin 1)) = a (ix3 b cc l) :=
  broadcastInDim_apply _ _ a (ix4 b cc l (0 : Fin 1)) (ix3 b cc l) (fun d => match d with
    | ⟨0, _⟩ => rfl
    | ⟨1, _⟩ => rfl
    | ⟨2, _⟩ => rfl)

/-- The five lines read at (b, r, k): number k of (b, r / 128, r % 128). -/
theorem joinRows_at (a2 a3 a4 : S32x64x128.Idx → EReal) (b : Fin 32) (r : Fin 8192) (k : Fin 3) :
    joinRows a2 a3 a4 (ix3 b r k)
      = (match k with | ⟨0, _⟩ => a2 | ⟨1, _⟩ => a3 | ⟨2, _⟩ => a4) (ix3 b (chan r) (lane r)) := by
  unfold joinRows
  rw [shapeCast_apply _ shapeCasts_S32x64x128x3_S32x8192x3 (ix3 b r k) (ix4 b (chan r) (lane r) k) (by
    rewrite [Shape.rowMajor_val_four, Shape.rowMajor_val_three]
    show ((b.val * 64 + r.val / 128) * 128 + r.val % 128) * 3 + k.val = (b.val * 8192 + r.val) * 3 + k.val
    have := r.isLt; omega)]
  match k with
  | ⟨0, _⟩ => exact (joinAt0 _ _ _ b (chan r) (lane r)).trans (unitAxis_at a2 b (chan r) (lane r))
  | ⟨1, _⟩ => exact (joinAt1 _ _ _ b (chan r) (lane r)).trans (unitAxis_at a3 b (chan r) (lane r))
  | ⟨2, _⟩ => exact (joinAt2 _ _ _ b (chan r) (lane r)).trans (unitAxis_at a4 b (chan r) (lane r))

/-- The five lines of the three arrays are the specification's whole result. -/
theorem joinRows_is_G (x y : In) : joinRows (arrCos x y) (arrDist x y) (arrAbs x y) = G x y := by
  funext i
  obtain ⟨b, r, k, rfl⟩ : ∃ (b : Fin 32) (r : Fin 8192) (k : Fin 3), i = ix3 b r k := ⟨i 0, i 1, i 2, eq_ix3 i⟩
  rw [joinRows_at, G_ix3]
  match k with
  | ⟨0, _⟩ => rfl
  | ⟨1, _⟩ => rfl
  | ⟨2, _⟩ => rfl

/-! ## The kernel program's run, read -/

/-- Every weakly fair execution of the kernel's program terminates with its result buffer at the specification's
    function of the two argument arrays, the arguments unchanged. -/
theorem run : θ_run defs (onTc (τ := τ) (main (F := Ideal))) ⟨m, fun _ => 0, ρ⟩ fun r => ∀ c : Dev nD,
      r.2.mem ((c.tc : Thread nD τ).loc main_v5) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v5 (Pipeline.mem_restRefs_of main_v5 (by decide) (by decide))).trans
        ((tail_v5 m c).trans (by rw [final2, final3, final4]; exact joinRows_is_G _ _)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.PairRows.Krn

end
-- ==== Proof.RefRows.lean ====
/-
  The reference program computes the pairwise rows.

  The reference transposes each input [32, 64, 300, 128] to [32, 64, 128, 300], reshapes it to [32, 8192, 300] (row
  r = 128·c + l), and takes, along the last axis, the sums Σ x·x, Σ y·y, Σ x·y, Σ (x − y)² and Σ |x − y|; from them the
  cosine, the pushed-up distance and the absolute sum, each widened to [32, 8192, 1], joined along the last axis.
  Read at the index (b, r, k) this is the k-th of the three numbers of (b, r / 128, r % 128): the specification's G.
  Steps: the composed index map of reshape-then-transpose at (b, r, d) is (b, r / 128, d, r % 128); each sum is zero
  plus the sum over d of its operand there; the joined array at k = 0, 1, 2 is the k-th piece at (b, r, 0).
-/
import proofs.«164841_j84593675862345_2_alg».proof.Proof.Spec
import proofs.«164841_j84593675862345_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PairRows.Ref

open Cert.ReferenceIdeal Cert.ReferenceIdeal.Gen Idealize.ShloMosaic Idealize.ShloMosaic.ValueIdx Idealize.ShloMosaic.TcCoe
  Idealize.SL.Sem Idealize.ShloMosaic.StableHlo

/-- An input array as the reference program types it. -/
abbrev Arr : Type := (⟨S32x64x300x128, .f32⟩ : BufTy).Contents (Elt Ideal)

/-! ## The index maps -/

/-- Reshape [32, 64, 128, 300] → [32, 8192, 300] then transpose of the last two axes, at (b, r, d): the input's index
    (b, r / 128, d, r % 128). -/
theorem idx_row0 (b : Fin 32) (r : Fin 8192) (d : Fin 300) :
    Read.idx_main_v0 (Read.idx_main_v1 (ix3 b r d)) = ix4 b (chan r) d (lane r) := by
  have hb := b.isLt; have hr := r.isLt; have hd := d.isLt
  funext a
  refine Fin.ext ?_
  match a with
  | ⟨0, _⟩ => show ((b.val * 8192 + r.val) * 300 + d.val) / 2457600 = b.val; omega
  | ⟨1, _⟩ => show ((b.val * 8192 + r.val) * 300 + d.val) / 38400 % 64 = r.val / 128; omega
  | ⟨2, _⟩ => show ((b.val * 8192 + r.val) * 300 + d.val) % 300 = d.val; omega
  | ⟨3, _⟩ => show ((b.val * 8192 + r.val) * 300 + d.val) / 300 % 128 = r.val % 128; omega

/-- The same for the second input's copy of the two operations. -/
theorem idx_row1 (b : Fin 32) (r : Fin 8192) (d : Fin 300) :
    Read.idx_main_v2 (Read.idx_main_v3 (ix3 b r d)) = ix4 b (chan r) d (lane r) := by
  have hb := b.isLt; have hr := r.isLt; have hd := d.isLt
  funext a
  refine Fin.ext ?_
  match a with
  | ⟨0, _⟩ => show ((b.val * 8192 + r.val) * 300 + d.val) / 2457600 = b.val; omega
  | ⟨1, _⟩ => show ((b.val * 8192 + r.val) * 300 + d.val) / 38400 % 64 = r.val / 128; omega
  | ⟨2, _⟩ => show ((b.val * 8192 + r.val) * 300 + d.val) % 300 = d.val; omega
  | ⟨3, _⟩ => show ((b.val * 8192 + r.val) * 300 + d.val) / 300 % 128 = r.val % 128; omega

/-- The first input rearranged, at (b, r, d). -/
theorem x_at (x0 : Arr) (b : Fin 32) (r : Fin 8192) (d : Fin 300) :
    Read.val_main_v1 (F := Ideal) x0 (ix3 b r d) = x0 (ix4 b (chan r) d (lane r)) := by
  rw [Read.val_main_v1_apply, Read.val_main_v0_apply, idx_row0]

/-- The second input rearranged, at (b, r, d). -/
theorem y_at (x1 : Arr) (b : Fin 32) (r : Fin 8192) (d : Fin 300) :
    Read.val_main_v3 (F := Ideal) x1 (ix3 b r d) = x1 (ix4 b (chan r) d (lane r)) := by
  rw [Read.val_main_v3_apply, Read.val_main_v2_apply, idx_row1]

/-! ## The five sums -/

/-- A sum's operand index at (b, r) and position k is (b, r, k) (one statement per sum of the program). -/
theorem idx_sum_xx (b : Fin 32) (r : Fin 8192) (k : Fin 300) : Read.idx_main_v5 (ix2 b r) k = ix3 b r k := by
  funext a; refine Fin.ext ?_; match a with | ⟨0, _⟩ => rfl | ⟨1, _⟩ => rfl | ⟨2, _⟩ => rfl
theorem idx_sum_yy (b : Fin 32) (r : Fin 8192) (k : Fin 300) : Read.idx_main_v10 (ix2 b r) k = ix3 b r k := by
  funext a; refine Fin.ext ?_; match a with | ⟨0, _⟩ => rfl | ⟨1, _⟩ => rfl | ⟨2, _⟩ => rfl
theorem idx_sum_xy (b : Fin 32) (r : Fin 8192) (k : Fin 300) : Read.idx_main_v15 (ix2 b r) k = ix3 b r k := by
  funext a; refine Fin.ext ?_; match a with | ⟨0, _⟩ => rfl | ⟨1, _⟩ => rfl | ⟨2, _⟩ => rfl
theorem idx_sum_sq (b : Fin 32) (r : Fin 8192) (k : Fin 300) : Read.idx_main_v20 (ix2 b r) k = ix3 b r k := by
  funext a; refine Fin.ext ?_; match a with | ⟨0, _⟩ => rfl | ⟨1, _⟩ => rfl | ⟨2, _⟩ => rfl
theorem idx_sum_ab (b : Fin 32) (r : Fin 8192) (k : Fin 300) : Read.idx_main_v29 (ix2 b r) k = ix3 b r k := by
  funext a; refine Fin.ext ?_; match a with | ⟨0, _⟩ => rfl | ⟨1, _⟩ => rfl | ⟨2, _⟩ => rfl

/-- Σ x·x along the row, from zero. -/
theorem xx_at (x0 : Arr) (b : Fin 32) (r : Fin 8192) :
    Read.val_main_v5 (F := Ideal) x0 (ix2 b r) = dot x0 x0 b (chan r) (lane r) := by
  rw [Read.val_main_v5_apply, Read.val_main_cst_apply, Ideal.ofBits_def, Ideal.ofBits_zero_f32, zero_add]
  unfold dot
  refine Finset.sum_congr rfl fun d _ => ?_
  rw [idx_sum_xx, Read.val_main_v4_apply, x_at, Ideal.mulf_def]

/-- Σ y·y along the row, from zero. -/
theorem yy_at (x1 : Arr) (b : Fin 32) (r : Fin 8192) :
    Read.val_main_v10 (F := Ideal) x1 (ix2 b r) = dot x1 x1 b (chan r) (lane r) := by
  rw [Read.val_main_v10_apply, Read.val_main_cst_1_apply, Ideal.ofBits_def, Ideal.ofBits_zero_f32, zero_add]
  unfold dot
  refine Finset.sum_congr rfl fun d _ => ?_
  rw [idx_sum_yy, Read.val_main_v9_apply, y_at, Ideal.mulf_def]

/-- Σ x·y along the row, from zero. -/
theorem xy_at (x0 x1 : Arr) (b : Fin 32) (r : Fin 8192) :
    Read.val_main_v15 (F := Ideal) x0 x1 (ix2 b r) = dot x0 x1 b (chan r) (lane r) := by
  rw [Read.val_main_v15_apply, Read.val_main_cst_3_apply, Ideal.ofBits_def, Ideal.ofBits_zero_f32, zero_add]
  unfold dot
  refine Finset.sum_congr rfl fun d _ => ?_
  rw [idx_sum_xy, Read.val_main_v14_apply, x_at, y_at, Ideal.mulf_def]

/-- Σ (x − y)² along the row, from zero. -/
theorem sq_at (x0 x1 : Arr) (b : Fin 32) (r : Fin 8192) :
    Read.val_main_v20 (F := Ideal) x0 x1 (ix2 b r) = sqd x0 x1 b (chan r) (lane r) := by
  rw [Read.val_main_v20_apply, Read.val_main_cst_4_apply, Ideal.ofBits_def, Ideal.ofBits_zero_f32, zero_add]
  unfold sqd
  refine Finset.sum_congr rfl fun d _ => ?_
  rw [idx_sum_sq, Read.val_main_v19_apply, Read.val_main_v18_apply, x_at, y_at, Ideal.mulf_def, Ideal.subf_def]

/-- Σ |x − y| along the row, from zero. -/
theorem ab_at (x0 x1 : Arr) (b : Fin 32) (r : Fin 8192) :
    Read.val_main_v29 (F := Ideal) x0 x1 (ix2 b r) = sab x0 x1 b (chan r) (lane r) := by
  rw [Read.val_main_v29_apply, Read.val_main_cst_7_apply, Ideal.ofBits_def, Ideal.ofBits_zero_f32, zero_add]
  unfold sab
  refine Finset.sum_congr rfl fun d _ => ?_
  rw [idx_sum_ab, Read.val_main_v28_apply, Read.val_main_v18_apply, x_at, y_at, Ideal.hostAbsf_def, Ideal.absf_def,
    Ideal.subf_def]

/-! ## The three numbers at (b, r) -/

/-- The cosine: Σ x·y over the product of the two floored norms. -/
theorem cos_at (x0 x1 : Arr) (b : Fin 32) (r : Fin 8192) :
    Read.val_main_v17 (F := Ideal) x0 x1 (ix2 b r) = cosv x0 x1 b (chan r) (lane r) := by
  rw [Read.val_main_v17_apply, Read.val_main_v16_apply, Read.val_main_v8_apply, Read.val_main_v13_apply,
    Read.val_main_v6_apply, Read.val_main_v11_apply, Read.val_main_v7_apply, Read.val_main_v12_apply,
    Read.val_main_cst_0_apply, Read.val_main_cst_2_apply, xy_at, xx_at, yy_at]
  rfl

/-- The distance: the root of the squared distance, pushed up by β where it is below β. -/
theorem dist_at (x0 x1 : Arr) (b : Fin 32) (r : Fin 8192) :
    Read.val_main_v27 (F := Ideal) x0 x1 (ix2 b r) = dist x0 x1 b (chan r) (lane r) := by
  rw [Read.val_main_v27_apply, Read.val_main_v26_apply, Read.val_main_v25_apply, Read.val_main_v23_apply,
    Read.val_main_v22_apply, Read.val_main_v24_apply, Read.val_main_v21_apply, Read.val_main_cst_5_apply,
    Read.val_main_cst_6_apply, sq_at]
  rfl

/-! ## The columns [32, 8192] → [32, 8192, 1] and their join -/

/-- A column's entry (b, r, 0) reads the array at (b, r) (one statement per column of the program). -/
theorem idx_col0 (b : Fin 32) (r : Fin 8192) (z : Fin 1) : Read.idx_main_v30 (ix3 b r z) = ix2 b r := by
  funext a; refine Fin.ext ?_; match a with | ⟨0, _⟩ => rfl | ⟨1, _⟩ => rfl
theorem idx_col1 (b : Fin 32) (r : Fin 8192) (z : Fin 1) : Read.idx_main_v31 (ix3 b r z) = ix2 b r := by
  funext a; refine Fin.ext ?_; match a with | ⟨0, _⟩ => rfl | ⟨1, _⟩ => rfl
theorem idx_col2 (b : Fin 32) (r : Fin 8192) (z : Fin 1) : Read.idx_main_v32 (ix3 b r z) = ix2 b r := by
  funext a; refine Fin.ext ?_; match a with | ⟨0, _⟩ => rfl | ⟨1, _⟩ => rfl

theorem col0_at (x0 x1 : Arr) (b : Fin 32) (r : Fin 8192) (z : Fin 1) :
    Read.val_main_v30 (F := Ideal) x0 x1 (ix3 b r z) = cosv x0 x1 b (chan r) (lane r) := by
  rw [Read.val_main_v30_apply, idx_col0, cos_at]
theorem col1_at (x0 x1 : Arr) (b : Fin 32) (r : Fin 8192) (z : Fin 1) :
    Read.val_main_v31 (F := Ideal) x0 x1 (ix3 b r z) = dist x0 x1 b (chan r) (lane r) := by
  rw [Read.val_main_v31_apply, idx_col1, dist_at]
theorem col2_at (x0 x1 : Arr) (b : Fin 32) (r : Fin 8192) (z : Fin 1) :
    Read.val_main_v32 (F := Ideal) x0 x1 (ix3 b r z) = sab x0 x1 b (chan r) (lane r) := by
  rw [Read.val_main_v32_apply, idx_col2, ab_at]

/-- Three pieces of extent one joined along the last axis, read at (b, r, 0): the first piece at (b, r, 0). -/
theorem join0 {α : Type} (u0 u1 u2 : S32x8192x1.Idx → α) (b : Fin 32) (r : Fin 8192) :
    concatenate S32x8192x3 2 [⟨S32x8192x1, u0⟩, ⟨S32x8192x1, u1⟩, ⟨S32x8192x1, u2⟩]
      concatenates_S32x8192x1_S32x8192x1_S32x8192x1_S32x8192x3_d2 (ix3 b r (0 : Fin 3)) = u0 (ix3 b r (0 : Fin 1)) :=
  concatenate_apply_piece (t := S32x8192x3) 2 _ _ (ix3 b r (0 : Fin 3)) 0 (by show (0 : ℕ) < 3; decide) S32x8192x1 u0 rfl rfl 0 rfl
    (ix3 b r (0 : Fin 1))
    (fun a => match a with
      | ⟨0, _⟩ => fun _ => rfl
      | ⟨1, _⟩ => fun _ => rfl
      | ⟨2, _⟩ => fun h => absurd rfl h)
    rfl

/-- … at (b, r, 1): the second piece at (b, r, 0). -/
theorem join1 {α : Type} (u0 u1 u2 : S32x8192x1.Idx → α) (b : Fin 32) (r : Fin 8192) :
    concatenate S32x8192x3 2 [⟨S32x8192x1, u0⟩, ⟨S32x8192x1, u1⟩, ⟨S32x8192x1, u2⟩]
      concatenates_S32x8192x1_S32x8192x1_S32x8192x1_S32x8192x3_d2 (ix3 b r (1 : Fin 3)) = u1 (ix3 b r (0 : Fin 1)) :=
  concatenate_apply_piece (t := S32x8192x3) 2 _ _ (ix3 b r (1 : Fin 3)) 1 (by show (1 : ℕ) < 3; decide) S32x8192x1 u1 rfl rfl 1 rfl
    (ix3 b r (0 : Fin 1))
    (fun a => match a with
      | ⟨0, _⟩ => fun _ => rfl
      | ⟨1, _⟩ => fun _ => rfl
      | ⟨2, _⟩ => fun h => absurd rfl h)
    rfl

/-- … at (b, r, 2): the third piece at (b, r, 0). -/
theorem join2 {α : Type} (u0 u1 u2 : S32x8192x1.Idx → α) (b : Fin 32) (r : Fin 8192) :
    concatenate S32x8192x3 2 [⟨S32x8192x1, u0⟩, ⟨S32x8192x1, u1⟩, ⟨S32x8192x1, u2⟩]
      concatenates_S32x8192x1_S32x8192x1_S32x8192x1_S32x8192x3_d2 (ix3 b r (2 : Fin 3)) = u2 (ix3 b r (0 : Fin 1)) :=
  concatenate_apply_piece (t := S32x8192x3) 2 _ _ (ix3 b r (2 : Fin 3)) 2 (by show (2 : ℕ) < 3; decide) S32x8192x1 u2 rfl rfl 2 rfl
    (ix3 b r (0 : Fin 1))
    (fun a => match a with
      | ⟨0, _⟩ => fun _ => rfl
      | ⟨1, _⟩ => fun _ => rfl
      | ⟨2, _⟩ => fun h => absurd rfl h)
    rfl

/-! ## The whole array -/

/-- The reference's last stage, as a function of the two inputs, is the specification's array. -/
theorem ref_val (x0 x1 : Arr) : Read.val_main_v33 (F := Ideal) x0 x1 = G x0 x1 := by
  funext i
  obtain ⟨b, r, k, rfl⟩ : ∃ (b : Fin 32) (r : Fin 8192) (k : Fin 3), i = ix3 b r k := ⟨i 0, i 1, i 2, eq_ix3 i⟩
  rw [G_ix3]
  unfold Read.val_main_v33
  match k with
  | ⟨0, _⟩ => exact (join0 _ _ _ b r).trans (col0_at x0 x1 b r 0)
  | ⟨1, _⟩ => exact (join1 _ _ _ b r).trans (col1_at x0 x1 b r 0)
  | ⟨2, _⟩ => exact (join2 _ _ _ b r).trans (col2_at x0 x1 b r 0)

/-- The reference run's result term is the specification's array of the two argument arrays. -/
theorem ref_is_G (m : (ℓ : Loc nD τ sig) → Buf (Elt Ideal) ℓ) (c : Dev nD) :
    Cert.ReferenceIdeal.Value.res_main_v33 (F := Ideal) m c
      = G (m ((c.tc : Thread nD τ).loc main_arg0)) (m ((c.tc : Thread nD τ).loc main_arg1)) :=
  (Read.val_main_v33_eq m c).trans (ref_val _ _)

/-- The statement composes with the reference's run: every weakly fair execution ends with the result buffer holding
    the specification's array of the launch contents of the two arguments. -/
example (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33)
        = G (m ((c.tc : Thread nD τ).loc main_arg0)) (m ((c.tc : Thread nD τ).loc main_arg1)) :=
  (θ_run defs _ _).mono (fun _ h c => (h c).1.trans (ref_is_G m c)) (Cert.ReferenceIdeal.Value.run (F := Ideal) m ρ)

example (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33)
        = G (m ((c.tc : Thread nD τ).loc main_arg0)) (m ((c.tc : Thread nD τ).loc main_arg1)) :=
  (θ_run defs _ _).mono (fun _ h c => by rw [(h c).1, ref_is_G]) (Cert.ReferenceIdeal.Value.run (F := Ideal) m ρ)

end Cert.PairRows.Ref

end
-- ==== Proof.lean ====
/-
  The claim: the kernel's program and the reference compute, from memories agreeing on the two inputs, the same
  array of pairwise numbers over the extended reals — for every (batch, channel, lane) the cosine of the two
  300-position vectors with each norm floored, their distance with its square pushed up when below the boundary, and
  the sum of their absolute differences, laid out as [32, 8192, 3].
  The kernel sums each of its five running sums over five runs of 60 positions accumulated from zero where the
  reference sums the 300 positions at once: the same sum in any commutative monoid, so no finiteness of the inputs is
  used. Both sides then apply the same operations (square root, maximum with the floor, product, quotient; comparison
  with the boundary read as 0 or 1, product, sum, square root) to equal sums, and both place number k of
  (b, c, l) at (b, 128·c + l, k).
  The three frames: each program terminates without a fault with its arguments unchanged — the kernel's program (at the
  word-level and at the ideal instance) by its pipelined run, the reference by its run as a list of host operations.
  The idealization rewrote nothing, so the preservation conjunct is trivial.
-/
import proofs.«164841_j84593675862345_2_alg».proof.Defs
import proofs.«164841_j84593675862345_2_alg».proof.Proof.Gen.Kernel
import proofs.«164841_j84593675862345_2_alg».proof.Proof.Gen.KernelIdeal
import proofs.«164841_j84593675862345_2_alg».proof.Proof.Gen.ReferenceIdeal
import proofs.«164841_j84593675862345_2_alg».proof.Proof.Gen.Pre_finite_inputs
import proofs.«164841_j84593675862345_2_alg».proof.Proof.Gen.ReferenceIdeal.Run
import proofs.«164841_j84593675862345_2_alg».proof.Proof.FrameK
import proofs.«164841_j84593675862345_2_alg».proof.Proof.KernelRows
import proofs.«164841_j84593675862345_2_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification's function of the (agreeing) argument arrays in their result buffers. -/
theorem algebraic : Cert.algebraic_KernelIdeal_ReferenceIdeal := by
  intro m ρ m' ρ' _ hagree
  refine ⟨_, Cert.PairRows.Krn.run m ρ, ?_⟩
  refine (θ_run Cert.ReferenceIdeal.defs _ _).mono (fun _ h c => ⟨(h c).1.trans ?_, (h c).2⟩)
    (Cert.ReferenceIdeal.Value.run (F := Ideal) m' ρ')
  rw [Cert.PairRows.Ref.ref_is_G, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
